-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x96 : Shape := ⟨3, ![8, 50000, 96]⟩
abbrev S50000x64 : Shape := ⟨2, ![50000, 64]⟩
abbrev S64x96 : Shape := ⟨2, ![64, 96]⟩
abbrev S64 : Shape := ⟨1, ![64]⟩
abbrev S64x64 : Shape := ⟨2, ![64, 64]⟩
abbrev S2x800000 : Shape := ⟨2, ![2, 800000]⟩
abbrev S_ : Shape := ⟨0, ![]⟩

class Facts : Prop where
  bcast_S_S8x50000x96 : S_.BroadcastsInDim S8x50000x96 (![] : Fin 0 → Fin S8x50000x96.rank)
  reducesTo_S8x50000x96_S_d0_1_2 : S8x50000x96.ReducesTo [0, 1, 2] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x50000x96 .f32) (main_arg1 : FVec F S50000x64 .f32) (main_arg2 : FVec F S50000x64 .f32) (main_arg3 : FVec F S64x96 .f32) (main_arg4 : FVec F S64 .f32) (main_arg5 : FVec F S64x64 .f32) (main_arg6 : FVec F S64 .f32) (main_arg7 : IVec S2x800000 32) : IVec S_ 1 :=
  let main_v0 : FVec F S8x50000x96 .f32 := Host.absf main_arg0
  let main_cst : FVec F S_ .f32 := constant S_ .f32 0x7F800000#32
  let main_v1 : FVec F S8x50000x96 .f32 := broadcastInDim S8x50000x96 ![] bcast_S_S8x50000x96 main_cst
  let main_v2 : IVec S8x50000x96 1 := cmpf .olt main_v0 main_v1
  let main_c : IVec S_ 1 := constantI S_ 1 1#1
  let main_v3 : IVec S_ 1 := (fun x v => Host.reduce IntOp.andi x v reducesTo_S8x50000x96_S_d0_1_2 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x96 .f32 := Host.absf main_arg3
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg4 main_arg5 main_arg6 main_v13 main_v16
-- ==== Kernel.lean ====
abbrev S8x50000x96 : Shape := ⟨3, ![8, 50000, 96]⟩
abbrev S50000x64 : Shape := ⟨2, ![50000, 64]⟩
abbrev S64x96 : Shape := ⟨2, ![64, 96]⟩
abbrev S64 : Shape := ⟨1, ![64]⟩
abbrev S64x64 : Shape := ⟨2, ![64, 64]⟩
abbrev S2x800000 : Shape := ⟨2, ![2, 800000]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S8x50000x128 : Shape := ⟨3, ![8, 50000, 128]⟩
abbrev S1x5000x96 : Shape := ⟨3, ![1, 5000, 96]⟩
abbrev S5000x64 : Shape := ⟨2, ![5000, 64]⟩
abbrev S1x5000x128 : Shape := ⟨3, ![1, 5000, 128]⟩
abbrev S5000x96 : Shape := ⟨2, ![5000, 96]⟩
abbrev S96x64 : Shape := ⟨2, ![96, 64]⟩
abbrev S1x5000x64 : Shape := ⟨3, ![1, 5000, 64]⟩

abbrev nBuf : Space → Nat
  | .hbm => 73
  | .vmem => 10
  | .smem => 0
  | _ => 0

abbrev bufTy : (tb : Table) → Fin (tcTables nBuf tb) → BufTy
  | .hbm, ⟨0, _⟩ => ⟨S8x50000x96, .f32⟩
  | .hbm, ⟨1, _⟩ => ⟨S50000x64, .f32⟩
  | .hbm, ⟨2, _⟩ => ⟨S50000x64, .f32⟩
  | .hbm, ⟨3, _⟩ => ⟨S64x96, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x800000, .i32⟩
  | .hbm, ⟨8, _⟩ => ⟨S50000, .i32⟩
  | .hbm, ⟨9, _⟩ => ⟨S1x50000, .i32⟩
  | .hbm, ⟨10, _⟩ => ⟨S1x50000, .i32⟩
  | .hbm, ⟨11, _⟩ => ⟨S2x50000, .i32⟩
  | .hbm, ⟨12, _⟩ => ⟨S2x850000, .i32⟩
  | .hbm, ⟨13, _⟩ => ⟨S1x850000, .i32⟩
  | .hbm, ⟨14, _⟩ => ⟨S850000, .i32⟩
  | .hbm, ⟨15, _⟩ => ⟨S1x850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S64x64, .f32⟩
  | .hbm, ⟨51, _⟩ => ⟨S50000x64, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S8x50000x128, .f32⟩
  | .local _ .vmem, ⟨0, _⟩ => ⟨S1x5000x96, .f32⟩
  | .local _ .vmem, ⟨1, _⟩ => ⟨S1x5000x96, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x96, .f32⟩
  | .local _ .vmem, ⟨7, _⟩ => ⟨S1x64, .f32⟩
  | .local _ .vmem, ⟨8, _⟩ => ⟨S1x5000x128, .f32⟩
  | .local _ .vmem, ⟨9, _⟩ => ⟨S1x5000x128, .f32⟩
  | _, _ => ⟨S8x50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![10, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S64x64_S64x64_1_0 : S64x64.Transposes [1, 0] S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S64_S1x64 : S64.ShapeCasts S1x64
  inb_S1x5000x96_S1x5000x96_0_0_0 : ∀ a, (![0, 0, 0] : Fin 3 → Nat) a + S1x5000x96.size a ≤ S1x5000x96.size a
  h_S1x5000x96 : 0 < S1x5000x96.numel
  shapeCasts_S1x5000x96_S5000x96 : S1x5000x96.ShapeCasts S5000x96
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  transposes_S64x96_p1_0_S96x64 : S64x96.Transposes [1, 0] S96x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1x5000x128_S1x5000x64_0_0_0 : ∀ a, (![0, 0, 0] : Fin 3 → Nat) a + S1x5000x64.size a ≤ S1x5000x128.size a
  h_S1x5000x64 : 0 < S1x5000x64.numel
  shapeCasts_S1x5000x64_S5000x64 : S1x5000x64.ShapeCasts S5000x64
  shapeCasts_S5000x64_S1x5000x64 : S5000x64.ShapeCasts S1x5000x64
  shapeCasts_S5000x64_S5000x64 : S5000x64.ShapeCasts S5000x64
  inb_S1x5000x128_S1x5000x64_0_0_64 : ∀ a, (![0, 0, 64] : Fin 3 → Nat) a + S1x5000x64.size a ≤ S1x5000x128.size a
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x96.size a ≤ S8x50000x96.size a
  hwx0_0 : ∀ i : grid0.Coords, EltTy.bits .f32 = 32 ∨ (Rect.block (s := S8x50000x96) S1x5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x96.size a ≤ S64x96.size a
  hwx0_3 : ∀ i : grid0.Coords, EltTy.bits .f32 = 32 ∨ (Rect.block (s := S64x96) S64x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5000x128.size a ≤ S8x50000x128.size a
  hwx0_5 : ∀ i : grid0.Coords, EltTy.bits .f32 = 32 ∨ (Rect.block (s := S8x50000x128) S1x5000x128.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S1x5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x50000x96 : Shape := ⟨3, ![8, 50000, 96]⟩
abbrev S50000x64 : Shape := ⟨2, ![50000, 64]⟩
abbrev S64x96 : Shape := ⟨2, ![64, 96]⟩
abbrev S64 : Shape := ⟨1, ![64]⟩
abbrev S64x64 : Shape := ⟨2, ![64, 64]⟩
abbrev S2x800000 : Shape := ⟨2, ![2, 800000]⟩
abbrev S1x50000x64 : Shape := ⟨3, ![1, 50000, 64]⟩
abbrev S_ : Shape := ⟨0, ![]⟩
abbrev S8x50000x64 : Shape := ⟨3, ![8, 50000, 64]⟩
abbrev S1x1x64 : Shape := ⟨3, ![1, 1, 64]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S850000x1 : Shape := ⟨2, ![850000, 1]⟩
abbrev S850000x64 : Shape := ⟨2, ![850000, 64]⟩
abbrev S1x64 : Shape := ⟨2, ![1, 64]⟩
abbrev S8x50000x128 : Shape := ⟨3, ![8, 50000, 128]⟩

abbrev nBuf : Space → Nat
  | .hbm => 87
  | .vmem => 0
  | .smem => 0
  | _ => 0

abbrev bufTy : (tb : Table) → Fin (tcTables nBuf tb) → BufTy
  | .hbm, ⟨0, _⟩ => ⟨S8x50000x96, .f32⟩
  | .hbm, ⟨1, _⟩ => ⟨S50000x64, .f32⟩
  | .hbm, ⟨2, _⟩ => ⟨S50000x64, .f32⟩
  | .hbm, ⟨3, _⟩ => ⟨S64x96, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x800000, .i32⟩
  | .hbm, ⟨8, _⟩ => ⟨S1x50000x64, .f32⟩
  | .hbm, ⟨9, _⟩ => ⟨S_, .f32⟩
  | .hbm, ⟨10, _⟩ => ⟨S1x50000x64, .f32⟩
  | .hbm, ⟨11, _⟩ => ⟨S1x50000x64, .f32⟩
  | .hbm, ⟨12, _⟩ => ⟨S8x50000x64, .f32⟩
  | .hbm, ⟨13, _⟩ => ⟨S1x1x64, .f32⟩
  | .hbm, ⟨14, _⟩ => ⟨S8x50000x64, .f32⟩
  | .hbm, ⟨15, _⟩ => ⟨S8x50000x64, .f32⟩
  | .hbm, ⟨16, _⟩ => ⟨S_, .f32⟩
  | .hbm, ⟨17, _⟩ => ⟨S8x50000x64, .f32⟩
  | .hbm, ⟨18, _⟩ => ⟨S8x50000x64, .f32⟩
  | .hbm, ⟨19, _⟩ => ⟨S8x50000x64, .f32⟩
  | .hbm, ⟨20, _⟩ => ⟨S8x50000x64, .f32⟩
  | .hbm, ⟨21, _⟩ => ⟨S50000, .i32⟩
  | .hbm, ⟨22, _⟩ => ⟨S1x50000, .i32⟩
  | .hbm, ⟨23, _⟩ => ⟨S1x50000, .i32⟩
  | .hbm, ⟨24, _⟩ => ⟨S2x50000, .i32⟩
  | .hbm, ⟨25, _⟩ => ⟨S2x850000, .i32⟩
  | .hbm, ⟨26, _⟩ => ⟨S1x850000, .i32⟩
  | .hbm, ⟨27, _⟩ => ⟨S850000, .i32⟩
  | .hbm, ⟨28, _⟩ => ⟨S1x850000, .i32⟩
  | .hbm, ⟨29, _⟩ => ⟨S850000, .i32⟩
  | .hbm, ⟨30, _⟩ => ⟨S_, .f32⟩
  | .hbm, ⟨31, _⟩ => ⟨S850000, .f32⟩
  | .hbm, ⟨32, _⟩ => ⟨S_, .f32⟩
  | .hbm, ⟨33, _⟩ => ⟨S50000, .f32⟩
  | .hbm, ⟨34, _⟩ => ⟨S850000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .i1⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000, .f32⟩
  | .hbm, ⟨62, _⟩ => ⟨S850000, .f32⟩
  | .hbm, ⟨63, _⟩ => ⟨S64x64, .f32⟩
  | .hbm, ⟨64, _⟩ => ⟨S50000x64, .f32⟩
  | .hbm, ⟨65, _⟩ => ⟨S850000x1, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S1x50000x64, .f32⟩
  | .hbm, ⟨85, _⟩ => ⟨S8x50000x64, .f32⟩
  | .hbm, ⟨86, _⟩ => ⟨S8x50000x128, .f32⟩
  | _, _ => ⟨S8x50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S50000x64_S1x50000x64_1_2 : S50000x64.BroadcastsInDim S1x50000x64 (![1, 2] : Fin 2 → Fin S1x50000x64.rank)
  bcast_S_S1x50000x64 : S_.BroadcastsInDim S1x50000x64 (![] : Fin 0 → Fin S1x50000x64.rank)
  bcast_S64_S1x1x64_2 : S64.BroadcastsInDim S1x1x64 (![2] : Fin 1 → Fin S1x1x64.rank)
  bcast_S1x1x64_S8x50000x64_0_1_2 : S1x1x64.BroadcastsInDim S8x50000x64 (![0, 1, 2] : Fin 3 → Fin S8x50000x64.rank)
  bcast_S_S8x50000x64 : S_.BroadcastsInDim S8x50000x64 (![] : Fin 0 → Fin S8x50000x64.rank)
  bcast_S1x50000x64_S8x50000x64_0_1_2 : S1x50000x64.BroadcastsInDim S8x50000x64 (![0, 1, 2] : Fin 3 → Fin S8x50000x64.rank)
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S64x64_S64x64_1_0 : S64x64.Transposes [1, 0] S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S8x50000x64_S8x50000x64_S8x50000x128_d2 : Shape.Concatenates [S8x50000x64, S8x50000x64] S8x50000x128 2
  dot_S8x50000x96_S64x96_S8x50000x64_2_1_01_0_n_n_wf : DotDims.WF S8x50000x96 S64x96 S8x50000x64 [2] [1] [0, 1] [0] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S8x50000x96_S64x96_S8x50000x64_2_1_01_0_n_n : DotDims S8x50000x96 S64x96 S8x50000x64 where
  lhsContracting := [2]
  rhsContracting := [1]
  lhsNonContracting := [0, 1]
  rhsNonContracting := [0]
  lhsBatch := []
  rhsBatch := []
  wf := dot_S8x50000x96_S64x96_S8x50000x64_2_1_01_0_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Block.lean ====
/-
  What one grid point leaves in its output block.

  The kernel body at a grid point holds a [1, 5000, 96] block of x, the [5000, 64] blocks of the temporal embedding and of
  the convolved spatial embedding for the same 5000 nodes, the whole [64, 96] weight and the [1, 64] bias.  It fills the
  [1, 5000, 128] output block in two stores: lanes 0 … 63 with
      0.9 · temb[r, d] + 0.1 · (Σ_k x[0, r, k] · w[d, k] + b[0, d]),
  (the product with the transposed weight accumulated from zero is that plain sum on the extended reals, and the change
  of float format on the way into the product is the identity there), and lanes 64 … 127 with the spatial block unchanged.
  Since the two stores tile the block, the block afterwards is ONE function of the lane: the blend below lane 64, the
  spatial entry from lane 64 on.
-/
import proofs.«138447_j12575664243034_2_alg».proof.Proof.Gen.KernelIdeal.Frame
import Idealize.ShloMosaic.Lib.Pipeline.Value
import Idealize.ShloMosaic.Lib.ValueIdx
import Idealize.ShloMosaic.PureOps.Ideal.Laws

noncomputable section

namespace Cert.Blend

open Idealize.ShloMosaic Idealize.ShloMosaic.ValueIdx Cert.KernelIdeal Cert.KernelIdeal.Gen

/-- The blend of one entry: 0.9 · t + 0.1 · (Σ_k x_k · w_k + b), the two weights the float words the programs carry. -/
def blend (xrow wrow : Fin 96 → EReal) (t b : EReal) : EReal :=
  Ideal.ofBits .f32 0x3F666666#32 * t + Ideal.ofBits .f32 0x3DCCCCCD#32 * ((∑ k : Fin 96, xrow k * wrow k) + b)

/-- Equal ingredients give equal blends. -/
theorem blend_congr {f1 g1 f2 g2 : Fin 96 → EReal} {a a' b b' : EReal} (h1 : ∀ k, f1 k = g1 k) (h2 : ∀ k, f2 k = g2 k)
    (h3 : a = a') (h4 : b = b') : blend f1 f2 a b = blend g1 g2 a' b' := by
  subst h3 h4
  rw [show f1 = g1 from funext h1, show f2 = g2 from funext h2]

/-- Row coordinate of the left operand of the block's product: the output row. -/
theorem lhs_row (j : S5000x64.Idx) (q : dot_S5000x96_S96x64_S5000x64_1_0_0_1_n_n.contr.Idx) : (dot_S5000x96_S96x64_S5000x64_1_0_0_1_n_n.lhsIdx j q 0).val = (j 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl

/-- Column coordinate of the right operand: the output lane. -/
theorem rhs_col (j : S5000x64.Idx) (q : dot_S5000x96_S96x64_S5000x64_1_0_0_1_n_n.contr.Idx) : (dot_S5000x96_S96x64_S5000x64_1_0_0_1_n_n.rhsIdx j q 1).val = (j 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- The product of the block of x (its unit axis dropped) with the transposed weight, accumulated from zero, at row r
    and lane d: the sum over the 96 window positions. -/
theorem product_apply (v0 : Vec Ideal S1x5000x96 .f32) (v3 : Vec Ideal S64x96 .f32) (r : Fin 5000) (d : Fin 64) :
    matmul (F := Ideal) dot_S5000x96_S96x64_S5000x64_1_0_0_1_n_n none (truncf .bf16 (shapeCast S5000x96 v0 shapeCasts_S1x5000x96_S5000x96) bitsLt_bf16_f32)
        (transpose S96x64 [1, 0] (truncf .bf16 v3 bitsLt_bf16_f32) transposes_S64x96_p1_0_S96x64)
        (constant S5000x64 .f32 0x00000000#32) (ix2 r d)
      = ∑ k : Fin 96, v0 (ix3 (0 : Fin 1) r k) * v3 (ix2 d k) := by
  refine (Ideal.matmul_constant_zero_apply dot_S5000x96_S96x64_S5000x64_1_0_0_1_n_n none _ _ (ix2 r d)).trans ?_
  rw [← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have hl : (dot_S5000x96_S96x64_S5000x64_1_0_0_1_n_n.lhsIdx (ix2 r d) ((contrEquiv1 dot_S5000x96_S96x64_S5000x64_1_0_0_1_n_n 96 rfl rfl).symm k) 1).val = k.val :=
    (DotDims.lhsIdx_val_of_single (d := dot_S5000x96_S96x64_S5000x64_1_0_0_1_n_n) (cl := 1) rfl _ _).trans hk
  have hr : (dot_S5000x96_S96x64_S5000x64_1_0_0_1_n_n.rhsIdx (ix2 r d) ((contrEquiv1 dot_S5000x96_S96x64_S5000x64_1_0_0_1_n_n 96 rfl rfl).symm k) 0).val = k.val :=
    (DotDims.rhsIdx_val_of_single (d := dot_S5000x96_S96x64_S5000x64_1_0_0_1_n_n) (cr := 0) rfl _ _).trans hk
  have h0 := lhs_row (ix2 r d) ((contrEquiv1 dot_S5000x96_S96x64_S5000x64_1_0_0_1_n_n 96 rfl rfl).symm k)
  have h1 := rhs_col (ix2 r d) ((contrEquiv1 dot_S5000x96_S96x64_S5000x64_1_0_0_1_n_n 96 rfl rfl).symm k)
  congr 1
  · show shapeCast S5000x96 v0 shapeCasts_S1x5000x96_S5000x96 _ = _
    refine shapeCast_apply v0 shapeCasts_S1x5000x96_S5000x96 _ (ix3 (0 : Fin 1) r k) ?_
    rw [Shape.rowMajor_val_two, Shape.rowMajor_val_three, h0, hl]
    show ((0 : ℕ) * 5000 + r.val) * 96 + k.val = r.val * 96 + k.val
    omega
  · show transpose S96x64 [1, 0] v3 transposes_S64x96_p1_0_S96x64 _ = _
    refine transpose_apply [1, 0] v3 transposes_S64x96_p1_0_S96x64 _ (ix2 d k) (fun b => ?_)
    match b with
    | ⟨0, _⟩ => exact hr.symm
    | ⟨1, _⟩ => exact h1.symm

/-- The body's first store (lanes 0 … 63) at row r lane d: the blend of the row of x, row d of the weight, the temporal
    entry and the bias entry. -/
theorem pay1_apply (v0 : Vec Ideal S1x5000x96 .f32) (v3 : Vec Ideal S64x96 .f32) (v7 : Vec Ideal S5000x64 .f32)
    (v10 : Vec Ideal S1x64 .f32) (r : Fin 5000) (d : Fin 64) :
    k0_pay1 (F := Ideal) v0 v3 v7 v10 (ix3 (0 : Fin 1) r d)
      = blend (fun k => v0 (ix3 (0 : Fin 1) r k)) (fun k => v3 (ix2 d k)) (v7 (ix2 r d)) (v10 (ix2 (0 : Fin 1) d)) := by
  unfold k0_pay1
  refine (shapeCast_apply _ shapeCasts_S5000x64_S1x5000x64 (ix3 (0 : Fin 1) r d) (ix2 r d) ?_).trans ?_
  · rw [Shape.rowMajor_val_two, Shape.rowMajor_val_three]
    show r.val * 64 + d.val = ((0 : ℕ) * 5000 + r.val) * 64 + d.val
    omega
  · simp only [addf_apply, mulf_apply, broadcast_apply]
    rw [product_apply v0 v3 r d]
    have hb : broadcastTo S5000x64 (shapeCast S1x64 v10 shapeCasts_S1x64_S1x64) broadcasts_S1x64_S5000x64 (ix2 r d)
        = v10 (ix2 (0 : Fin 1) d) := by
      rw [shapeCast_self]
      refine broadcastTo_apply v10 broadcasts_S1x64_S5000x64 (ix2 r d) (ix2 (0 : Fin 1) d) (fun a => ?_)
      match a with
      | ⟨0, _⟩ => show (0 : ℕ) = if (1 : ℕ) = 1 then 0 else r.val; rw [if_pos rfl]
      | ⟨1, _⟩ => show d.val = if (64 : ℕ) = 1 then 0 else d.val; rw [if_neg (by decide)]
    rw [hb]
    rfl

/-- The body's second store (lanes 64 … 127) at row r lane d: the spatial block's entry. -/
theorem pay2_apply (v20 : Vec Ideal S5000x64 .f32) (r : Fin 5000) (d : Fin 64) :
    k0_pay2 (F := Ideal) v20 (ix3 (0 : Fin 1) r d) = v20 (ix2 r d) := by
  unfold k0_pay2
  refine (shapeCast_apply _ shapeCasts_S5000x64_S1x5000x64 (ix3 (0 : Fin 1) r d) (ix2 r d) ?_).trans ?_
  · rw [Shape.rowMajor_val_two, Shape.rowMajor_val_three]
    show r.val * 64 + d.val = ((0 : ℕ) * 5000 + r.val) * 64 + d.val
    omega
  · rw [shapeCast_self]

/-- The output block as one function of the lane: the blend below lane 64, the spatial entry from lane 64 on. -/
def blockFn (x0 : Vec Ideal S1x5000x96 .f32) (x1 x2 : Vec Ideal S5000x64 .f32) (x3 : Vec Ideal S64x96 .f32)
    (x4 : Vec Ideal S1x64 .f32) : Vec Ideal S1x5000x128 .f32 := fun y =>
  if h : (y 2).val < 64 then
    blend (fun k => x0 (ix3 (0 : Fin 1) ⟨(y 1).val, (y 1).isLt⟩ k)) (fun k => x3 (ix2 (⟨(y 2).val, h⟩ : Fin 64) k))
      (x1 (ix2 (⟨(y 1).val, (y 1).isLt⟩ : Fin 5000) (⟨(y 2).val, h⟩ : Fin 64))) (x4 (ix2 (0 : Fin 1) (⟨(y 2).val, h⟩ : Fin 64)))
  else x2 (ix2 (⟨(y 1).val, (y 1).isLt⟩ : Fin 5000) (⟨(y 2).val - 64, by have := (y 2).isLt; change (y 2).val < 128 at this; omega⟩ : Fin 64))

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block is that function of the input blocks: each of the two stores writes the
    function's values on its half of the lanes, and the two halves tile the block. -/
theorem out_eq (x0 : Vec Ideal S1x5000x96 .f32) (x1 x2 : Vec Ideal S5000x64 .f32) (x3 : Vec Ideal S64x96 .f32)
    (x4 : Vec Ideal S1x64 .f32) : out0_5 (F := Ideal) x0 x1 x2 x3 x4 = blockFn x0 x1 x2 x3 x4 := by
  funext y
  unfold out0_5
  simp only [View.ld_unit_zero (S := S1x5000x96) hz3, View.ld_unit_zero (S := S5000x64) hz2,
    View.ld_unit_zero (S := S64x96) hz2, View.ld_unit_zero (S := S1x64) hz2]
  refine View.canon_apply_of_pieces (blockFn x0 x1 x2 x3 x4) _ ?_ y (cover0_5 _ _ y)
  intro p hp x
  simp only [List.mem_cons, List.not_mem_nil, or_false] at hp
  rcases hp with rfl | rfl
  · obtain ⟨a, r, d, rfl⟩ : ∃ (a : Fin 1) (r : Fin 5000) (d : Fin 64), x = ix3 a r d := ⟨x 0, x 1, x 2, eq_ix3 x⟩
    obtain rfl : a = 0 := Subsingleton.elim _ _
    show k0_pay2 (F := Ideal) x2 (ix3 (0 : Fin 1) r d) = _
    rw [pay2_apply]
    unfold blockFn
    have hlane : ((r0_5.emb (ix3 (0 : Fin 1) r d)) 2).val = 64 + 1 * d.val := rfl
    have hrow : ((r0_5.emb (ix3 (0 : Fin 1) r d)) 1).val = 0 + 1 * r.val := rfl
    rw [dif_neg (by rw [hlane]; omega)]
    congr 1
    funext b
    match b with
    | ⟨0, _⟩ => exact Fin.ext (by show r.val = _; rw [hrow]; omega)
    | ⟨1, _⟩ => exact Fin.ext (by show d.val = _ - 64; rw [hlane]; omega)
  · obtain ⟨a, r, d, rfl⟩ : ∃ (a : Fin 1) (r : Fin 5000) (d : Fin 64), x = ix3 a r d := ⟨x 0, x 1, x 2, eq_ix3 x⟩
    obtain rfl : a = 0 := Subsingleton.elim _ _
    show k0_pay1 (F := Ideal) x0 x3 x1 x4 (ix3 (0 : Fin 1) r d) = _
    rw [pay1_apply]
    unfold blockFn
    have hlane : ((r0_4.emb (ix3 (0 : Fin 1) r d)) 2).val = 0 + 1 * d.val := rfl
    have hrow : ((r0_4.emb (ix3 (0 : Fin 1) r d)) 1).val = 0 + 1 * r.val := rfl
    have hd : ((r0_4.emb (ix3 (0 : Fin 1) r d)) 2).val < 64 := by rw [hlane]; have := d.isLt; omega
    rw [dif_pos hd]
    have er : (⟨((r0_4.emb (ix3 (0 : Fin 1) r d)) 1).val, ((r0_4.emb (ix3 (0 : Fin 1) r d)) 1).isLt⟩ : Fin 5000) = r :=
      Fin.ext (by show _ = r.val; rw [hrow]; omega)
    have ed : (⟨((r0_4.emb (ix3 (0 : Fin 1) r d)) 2).val, hd⟩ : Fin 64) = d := Fin.ext (by show _ = d.val; rw [hlane]; omega)
    rw [er, ed]

end Cert.Blend

end
-- ==== Proof.KernelValue.lean ====
/-
  The kernel's result array as one function of the arrays the region finds.

  The grid is 10 node blocks by 8 batch entries.  At the point (n, b) the output window's block is
  [b, 5000·n … 5000·n + 4999, 0 … 127] of the result; the block of x is the same rows of batch entry b, the blocks of the
  temporal and of the convolved spatial embedding are rows 5000·n … of those arrays, and the weight and the bias are whole.
  So what the point writes back is the restriction to its block of ONE function of the whole arrays,
      result[b, r, j] = 0.9 · temb[r, j] + 0.1 · (Σ_k x[b, r, k] · w[j, k] + bias[j])   for j < 64,
      result[b, r, j] = spa[r, j − 64]                                                   for j ≥ 64,
  and, the 80 blocks tiling the result, the array after the run is that function.
-/
import proofs.«138447_j12575664243034_2_alg».proof.Proof.Gen.KernelIdeal.Value
import proofs.«138447_j12575664243034_2_alg».proof.Proof.Block

set_option maxRecDepth 16384

noncomputable section

namespace Cert.Blend

open Idealize.ShloMosaic Idealize.ShloMosaic.TcCoe Idealize.ShloMosaic.ValueIdx Idealize.SL.Sem Cert.KernelIdeal Cert.KernelIdeal.Gen
open Idealize.ShloMosaic.Pipeline (Dat)

/-- The result as one function of the batch of windows x, the temporal embedding, the convolved spatial embedding, the
    weight and the bias (the bias by its lane). -/
def wholeFn (x : S8x50000x96.Idx → EReal) (temb spa : S50000x64.Idx → EReal) (w : S64x96.Idx → EReal) (bias : Fin 64 → EReal) :
    S8x50000x128.Idx → EReal := fun i =>
  if h : (i 2).val < 64 then
    blend (fun k => x (ix3 (⟨(i 0).val, (i 0).isLt⟩ : Fin 8) (⟨(i 1).val, (i 1).isLt⟩ : Fin 50000) k))
      (fun k => w (ix2 (⟨(i 2).val, h⟩ : Fin 64) k))
      (temb (ix2 (⟨(i 1).val, (i 1).isLt⟩ : Fin 50000) (⟨(i 2).val, h⟩ : Fin 64))) (bias ⟨(i 2).val, h⟩)
  else spa (ix2 (⟨(i 1).val, (i 1).isLt⟩ : Fin 50000) (⟨(i 2).val - 64, by have := (i 2).isLt; change (i 2).val < 128 at this; omega⟩ : Fin 64))

/-- How the windows' blocks move with the grid point: x with the output block on the batch and node axes, the two
    embeddings with its node axis, the weight and the bias fixed (decided over the 80 points). -/
theorem index_facts : ∀ t : Fin cfg0.N,
    win0_5.index t (2 : Fin 3) = 0
    ∧ win0_0.index t (0 : Fin 3) = win0_5.index t (0 : Fin 3) ∧ win0_0.index t (1 : Fin 3) = win0_5.index t (1 : Fin 3)
    ∧ win0_0.index t (2 : Fin 3) = 0
    ∧ win0_1.index t (0 : Fin 2) = win0_5.index t (1 : Fin 3) ∧ win0_1.index t (1 : Fin 2) = 0
    ∧ win0_2.index t (0 : Fin 2) = win0_5.index t (1 : Fin 3) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) ≤ 9 :=
  (by decide +kernel : ∀ t : Fin grid0.N, _)

/-- Every (batch entry, node block) is some point's output block. -/
theorem index_onto : ∀ (q0 : Fin 8) (q1 : Fin 10), ∃ t : Fin cfg0.N, win0_5.index t = ![q0.val, q1.val, 0] :=
  (by decide +kernel : ∀ (q0 : Fin 8) (q1 : Fin 10), ∃ t : Fin grid0.N, win0_5.index t = ![q0.val, q1.val, 0])

set_option maxHeartbeats 1000000 in
/-- Block t of the whole function, for ANY five arrays: the body's block function of the five windows' blocks at
    point t is the output window's block of the whole function of the arrays.  (The block of x moves with the output
    block on the batch and node axes, the embeddings' blocks on the node axis, the weight and the bias are whole.) -/
theorem block_eq (A0 : S8x50000x96.Idx → EReal) (A1 A2 : S50000x64.Idx → EReal) (A3 : S64x96.Idx → EReal)
    (A4 : S1x64.Idx → EReal) (t : Fin cfg0.N) :
    blockFn (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4)
    = ((cfg0.win 5).blk t).view.read (Elt Ideal) (wholeFn A0 A1 A2 A3 (fun d => A4 (ix2 (0 : Fin 1) d))) := by
  obtain ⟨f52, f00, f01, f02, f10, f11, f20, f21, f30, f31, f40, f41, -, -⟩ := index_facts t
  funext y
  show blockFn _ _ _ _ _ y = wholeFn A0 A1 A2 A3 (fun d => A4 (ix2 (0 : Fin 1) d)) (((cfg0.win 5).blk t).view.emb y)
  have c0 : ((((cfg0.win 5).blk t).view.emb y) 0).val = win0_5.index t (0 : Fin 3) * 1 + 1 * (y 0).val := rfl
  have c1 : ((((cfg0.win 5).blk t).view.emb y) 1).val = win0_5.index t (1 : Fin 3) * 5000 + 1 * (y 1).val := rfl
  have c2 : ((((cfg0.win 5).blk t).view.emb y) 2).val = win0_5.index t (2 : Fin 3) * 128 + 1 * (y 2).val := rfl
  have hy0 : (y 0).val < 1 := (y 0).isLt
  have hy1 : (y 1).val < 5000 := (y 1).isLt
  have hy2 : (y 2).val < 128 := (y 2).isLt
  unfold blockFn wholeFn
  by_cases h : (y 2).val < 64
  · have h' : ((((cfg0.win 5).blk t).view.emb y) 2).val < 64 := by rw [c2]; omega
    rw [dif_pos h, dif_pos h']
    refine blend_congr (fun k => ?_) (fun k => ?_) ?_ ?_
    · show A0 (((cfg0.win 0).blk t).view.emb (ix3 (0 : Fin 1) ⟨(y 1).val, (y 1).isLt⟩ k)) = A0 _
      refine congrArg A0 (funext fun a => Fin.ext ?_)
      match a with
      | ⟨0, _⟩ => show win0_0.index t (0 : Fin 3) * 1 + 1 * 0 = _; rw [c0]; omega
      | ⟨1, _⟩ => show win0_0.index t (1 : Fin 3) * 5000 + 1 * (y 1).val = _; rw [c1]; omega
      | ⟨2, _⟩ => show win0_0.index t (2 : Fin 3) * 96 + 1 * k.val = k.val; omega
    · show A3 (((cfg0.win 3).blk t).view.emb (ix2 (⟨(y 2).val, h⟩ : Fin 64) k)) = A3 _
      refine congrArg A3 (funext fun a => Fin.ext ?_)
      match a with
      | ⟨0, _⟩ => show win0_3.index t (0 : Fin 2) * 64 + 1 * (y 2).val = _; rw [c2]; omega
      | ⟨1, _⟩ => show win0_3.index t (1 : Fin 2) * 96 + 1 * k.val = k.val; omega
    · show A1 (((cfg0.win 1).blk t).view.emb (ix2 (⟨(y 1).val, (y 1).isLt⟩ : Fin 5000) (⟨(y 2).val, h⟩ : Fin 64))) = A1 _
      refine congrArg A1 (funext fun a => Fin.ext ?_)
      match a with
      | ⟨0, _⟩ => show win0_1.index t (0 : Fin 2) * 5000 + 1 * (y 1).val = _; rw [c1]; omega
      | ⟨1, _⟩ => show win0_1.index t (1 : Fin 2) * 64 + 1 * (y 2).val = _; rw [c2]; omega
    · show A4 (((cfg0.win 4).blk t).view.emb (ix2 (0 : Fin 1) (⟨(y 2).val, h⟩ : Fin 64))) = A4 _
      refine congrArg A4 (funext fun a => Fin.ext ?_)
      match a with
      | ⟨0, _⟩ => show win0_4.index t (0 : Fin 2) * 1 + 1 * 0 = 0; omega
      | ⟨1, _⟩ => show win0_4.index t (1 : Fin 2) * 64 + 1 * (y 2).val = _; rw [c2]; omega
  · have h' : ¬ ((((cfg0.win 5).blk t).view.emb y) 2).val < 64 := by rw [c2]; omega
    rw [dif_neg h, dif_neg h']
    show A2 (((cfg0.win 2).blk t).view.emb (ix2 (⟨(y 1).val, (y 1).isLt⟩ : Fin 5000) (⟨(y 2).val - 64, by omega⟩ : Fin 64))) = A2 _
    refine congrArg A2 (funext fun a => Fin.ext ?_)
    match a with
    | ⟨0, _⟩ => show win0_2.index t (0 : Fin 2) * 5000 + 1 * (y 1).val = _; rw [c1]; omega
    | ⟨1, _⟩ => show win0_2.index t (1 : Fin 2) * 64 + 1 * ((y 2).val - 64) = _ - 64; rw [c2]; omega

variable (m : (ℓ : Loc nD τ sig) → Buf (Elt Ideal) ℓ) (ρ : Dev nD → PrngReg)

/-- The arrays as the region finds them, assembled: the function the result array will hold. -/
def regionFn (c : Dev nD) : S8x50000x128.Idx → EReal :=
  wholeFn (V m c (Pipeline.arrRef spec0 0)) (V m c (Pipeline.arrRef spec0 1)) (V m c (Pipeline.arrRef spec0 2))
    (V m c (Pipeline.arrRef spec0 3)) (fun d => V m c (Pipeline.arrRef spec0 4) (ix2 (0 : Fin 1) d))

/-- What point t writes back is block t of that function. -/
theorem flushed_eq (c : Dev nD) (t : Fin cfg0.N) :
    (dats m 0 c).flushed 5 t = ((cfg0.win 5).blk t).view.read (Elt Ideal) (regionFn m c) := by
  rw [Cert.KernelIdeal.Value.flushed5]
  show out0_5 (iblk m c 0 t) (iblk m c 1 t) (iblk m c 2 t) (iblk m c 3 t) (iblk m c 4 t) = _
  rw [out_eq]
  unfold iblk regionFn
  exact block_eq _ _ _ _ _ t

/-- An index of the result is in point t's block iff each coordinate is in the block's range. -/
theorem mem_block (t : Fin cfg0.N) (i : S8x50000x128.Idx) :
    i ∈ ((cfg0.win 5).blk t).view.set ↔ ∀ a : Fin 3, win0_5.index t a * S1x5000x128.size a ≤ (i a).val
      ∧ (i a).val < win0_5.index t a * S1x5000x128.size a + S1x5000x128.size a := by
  show i ∈ ((View.whole main_v51).slice (win0_5.rect t)).set ↔ _
  rw [View.set_slice_whole, Rect.mem_set_unit]
  exact Iff.rfl

/-- The 80 blocks cover the result: entry (b, r, j) lies in the block of the point (r / 5000, b). -/
theorem covered (i : S8x50000x128.Idx) : ∃ t : Fin cfg0.N, (cfg0.win 5).flush t = true ∧ i ∈ ((cfg0.win 5).blk t).view.set := by
  have hi0 : (i 0).val < 8 := (i 0).isLt
  have hi1 : (i 1).val < 50000 := (i 1).isLt
  have hi2 : (i 2).val < 128 := (i 2).isLt
  obtain ⟨t, ht⟩ := index_onto ⟨(i 0).val, hi0⟩ ⟨(i 1).val / 5000, by omega⟩
  have q0 : win0_5.index t (0 : Fin 3) = (i 0).val := congrFun ht 0
  have q1 : win0_5.index t (1 : Fin 3) = (i 1).val / 5000 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 5000 ≤ (i 1).val ∧ (i 1).val < win0_5.index t (1 : Fin 3) * 5000 + 5000; omega
  | ⟨2, _⟩ => show win0_5.index t (2 : Fin 3) * 128 ≤ (i 2).val ∧ (i 2).val < win0_5.index t (2 : Fin 3) * 128 + 128; omega

/-- The result array after the run is the function of the arrays the region found. -/
theorem final (c : Dev nD) : (dats m 0 c).arrAt 5 cfg0.N = regionFn m c :=
  (dats m 0 c).arrAt_eq_of_cover 5 (regionFn m c) (fun t _ => flushed_eq m c t) covered

/-- The kernel's run: the result array at that function, the arguments unchanged. -/
theorem run : θ_run defs (onTc (τ := τ) (main (F := Ideal))) ⟨m, fun _ => 0, ρ⟩ fun r => ∀ c : Dev nD,
      r.2.mem ((c : Thread nD τ).loc main_v51) = regionFn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Blend

end
-- ==== Proof.RefOps.lean ====
/-
  The reference program read as one straight line of host operations.

  The reference's entry point is a sequence of 79 tensor operations with no kernel launch: the blend
  0.9 * temb + 0.1 * (x . w^T + b), the graph convolution of the spatial embedding (degrees by a scatter-add of ones over
  the edge targets, the symmetric normalisation rsqrt(deg) gathered at both ends of every edge, the projected features
  gathered at the sources, scaled and scatter-added into the targets, plus the bias), and their concatenation along the
  last axis.  Here the sequence is listed in order, the called select-or-zero function's three operations in the place of
  its call, and its run is read back: every execution ends with each buffer at the fold of the operations' results over
  the launch contents, the arguments untouched.
-/
import proofs.«138447_j12575664243034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry point's 79 operations, in program order. -/
abbrev ops : List (HloOp τ sig (Elt F)) :=
  [ unary main_arg1 main_v0 (broadcastInDim S1x50000x64 ![1, 2] bcast_S50000x64_S1x50000x64_1_2 : (⟨S50000x64, .f32⟩ : BufTy).Contents (Elt F) → (⟨S1x50000x64, .f32⟩ : BufTy).Contents (Elt F)),
    nullary main_cst (constant S_ .f32 0x3F666666#32),
    unary main_cst main_v1 (broadcastInDim S1x50000x64 ![] bcast_S_S1x50000x64 : (⟨S_, .f32⟩ : BufTy).Contents (Elt F) → (⟨S1x50000x64, .f32⟩ : BufTy).Contents (Elt F)),
    binary main_v1 main_v0 main_v2 (mulf : (⟨S1x50000x64, .f32⟩ : BufTy).Contents (Elt F) → (⟨S1x50000x64, .f32⟩ : BufTy).Contents (Elt F) → (⟨S1x50000x64, .f32⟩ : BufTy).Contents (Elt F)),
    binary main_arg0 main_arg3 main_v3 ((fun l r => Host.dotGeneral dot_S8x50000x96_S64x96_S8x50000x64_2_1_01_0_n_n none l r) : (⟨S8x50000x96, .f32⟩ : BufTy).Contents (Elt F) → (⟨S64x96, .f32⟩ : BufTy).Contents (Elt F) → (⟨S8x50000x64, .f32⟩ : BufTy).Contents (Elt F)),
    unary main_arg4 main_v4 (broadcastInDim S1x1x64 ![2] bcast_S64_S1x1x64_2 : (⟨S64, .f32⟩ : BufTy).Contents (Elt F) → (⟨S1x1x64, .f32⟩ : BufTy).Contents (Elt F)),
    unary main_v4 main_v5 (broadcastInDim S8x50000x64 ![0, 1, 2] bcast_S1x1x64_S8x50000x64_0_1_2 : (⟨S1x1x64, .f32⟩ : BufTy).Contents (Elt F) → (⟨S8x50000x64, .f32⟩ : BufTy).Contents (Elt F)),
    binary main_v3 main_v5 main_v6 (addf : (⟨S8x50000x64, .f32⟩ : BufTy).Contents (Elt F) → (⟨S8x50000x64, .f32⟩ : BufTy).Contents (Elt F) → (⟨S8x50000x64, .f32⟩ : BufTy).Contents (Elt F)),
    nullary main_cst_0 (constant S_ .f32 0x3DCCCCCD#32),
    unary main_cst_0 main_v7 (broadcastInDim S8x50000x64 ![] bcast_S_S8x50000x64 : (⟨S_, .f32⟩ : BufTy).Contents (Elt F) → (⟨S8x50000x64, .f32⟩ : BufTy).Contents (Elt F)),
    binary main_v7 main_v6 main_v8 (mulf : (⟨S8x50000x64, .f32⟩ : BufTy).Contents (Elt F) → (⟨S8x50000x64, .f32⟩ : BufTy).Contents (Elt F) → (⟨S8x50000x64, .f32⟩ : BufTy).Contents (Elt F)),
    unary main_v2 main_v9 (broadcastInDim S8x50000x64 ![0, 1, 2] bcast_S1x50000x64_S8x50000x64_0_1_2 : (⟨S1x50000x64, .f32⟩ : BufTy).Contents (Elt F) → (⟨S8x50000x64, .f32⟩ : BufTy).Contents (Elt F)),
    binary main_v9 main_v8 main_v10 (addf : (⟨S8x50000x64, .f32⟩ : BufTy).Contents (Elt F) → (⟨S8x50000x64, .f32⟩ : BufTy).Contents (Elt F) → (⟨S8x50000x64, .f32⟩ : BufTy).Contents (Elt F)),
    nullary main_v11 (iotaInDim S50000 32 0),
    unary main_v11 main_v12 (broadcastInDim S1x50000 ![1] bcast_S50000_S1x50000_1 : (⟨S50000, .i32⟩ : BufTy).Contents (Elt F) → (⟨S1x50000, .i32⟩ : BufTy).Contents (Elt F)),
    unary main_v11 main_v13 (broadcastInDim S1x50000 ![1] bcast_S50000_S1x50000_1 : (⟨S50000, .i32⟩ : BufTy).Contents (Elt F) → (⟨S1x50000, .i32⟩ : BufTy).Contents (Elt F)),
    binary main_v12 main_v13 main_v14 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)),
    binary main_arg7 main_v14 main_v15 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    unary main_v15 main_v16 ((extractStridedSlice S1x850000 ![0, 0] · slices_S2x850000_S1x850000_0_0) : (⟨S2x850000, .i32⟩ : BufTy).Contents (Elt F) → (⟨S1x850000, .i32⟩ : BufTy).Contents (Elt F)),
    reshape main_v16 main_v17 rfl shapeCasts_S1x850000_S850000,
    unary main_v15 main_v18 ((extractStridedSlice S1x850000 ![1, 0] · slices_S2x850000_S1x850000_1_0) : (⟨S2x850000, .i32⟩ : BufTy).Contents (Elt F) → (⟨S1x850000, .i32⟩ : BufTy).Contents (Elt F)),
    reshape main_v18 main_v19 rfl shapeCasts_S1x850000_S850000,
    nullary main_cst_1 (constant S_ .f32 0x3F800000#32),
    unary main_cst_1 main_v20 (broadcastInDim S850000 ![] bcast_S_S850000 : (⟨S_, .f32⟩ : BufTy).Contents (Elt F) → (⟨S850000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v19 main_v22 (broadcastInDim S850000x1 ![0] bcast_S850000_S850000x1_0 : (⟨S850000, .i32⟩ : BufTy).Contents (Elt F) → (⟨S850000x1, .i32⟩ : BufTy).Contents (Elt F)),
    ternary main_v21 main_v22 main_v20 main_v23 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_3 (constant S_ .f32 0x00000000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (cmpf .ogt : (⟨S50000, .f32⟩ : BufTy).Contents (Elt F) → (⟨S50000, .f32⟩ : BufTy).Contents (Elt F) → (⟨S50000, .i1⟩ : BufTy).Contents (Elt F)),
    unary main_v23 main_v26 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v25) (TRef.of (T := ⟨S50000, .f32⟩) main_v26) (TRef.of (T := ⟨S50000, .f32⟩) main_call0_v1) (TRef.of (T := ⟨S50000, .f32⟩) main_v27) select,
    nullary main_c (constantI S_ 32 0#32),
    unary main_c main_v28 (broadcastInDim S850000 ![] bcast_S_S850000 : (⟨S_, .i32⟩ : BufTy).Contents (Elt F) → (⟨S850000, .i32⟩ : BufTy).Contents (Elt F)),
    binary main_v17 main_v28 main_v29 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v30 (broadcastInDim S850000 ![] bcast_S_S850000 : (⟨S_, .i32⟩ : BufTy).Contents (Elt F) → (⟨S850000, .i32⟩ : BufTy).Contents (Elt F)),
    binary main_v17 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v17 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v27 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_6 (constantI S_ 32 0#32),
    unary main_c_6 main_v35 (broadcastInDim S850000 ![] bcast_S_S850000 : (⟨S_, .i32⟩ : BufTy).Contents (Elt F) → (⟨S850000, .i32⟩ : BufTy).Contents (Elt F)),
    binary main_v19 main_v35 main_v36 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v37 (broadcastInDim S850000 ![] bcast_S_S850000 : (⟨S_, .i32⟩ : BufTy).Contents (Elt F) → (⟨S850000, .i32⟩ : BufTy).Contents (Elt F)),
    binary main_v19 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v19 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_v27 main_v40 main_v41 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v34 main_v41 main_v42 (mulf : (⟨S850000, .f32⟩ : BufTy).Contents (Elt F) → (⟨S850000, .f32⟩ : BufTy).Contents (Elt F) → (⟨S850000, .f32⟩ : BufTy).Contents (Elt F)),
    unary main_arg5 main_v43 ((transpose S64x64 [1, 0] · transposes_S64x64_S64x64_1_0) : (⟨S64x64, .f32⟩ : BufTy).Contents (Elt F) → (⟨S64x64, .f32⟩ : BufTy).Contents (Elt F)),
    binary main_arg2 main_v43 main_v44 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v42 main_v45 (broadcastInDim S850000x1 ![0] bcast_S850000_S850000x1_0 : (⟨S850000, .f32⟩ : BufTy).Contents (Elt F) → (⟨S850000x1, .f32⟩ : BufTy).Contents (Elt F)),
    nullary main_c_8 (constantI S_ 32 0#32),
    unary main_c_8 main_v46 (broadcastInDim S850000 ![] bcast_S_S850000 : (⟨S_, .i32⟩ : BufTy).Contents (Elt F) → (⟨S850000, .i32⟩ : BufTy).Contents (Elt F)),
    binary main_v17 main_v46 main_v47 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v48 (broadcastInDim S850000 ![] bcast_S_S850000 : (⟨S_, .i32⟩ : BufTy).Contents (Elt F) → (⟨S850000, .i32⟩ : BufTy).Contents (Elt F)),
    binary main_v17 main_v48 main_v49 (addi : (⟨S850000, .i32⟩ : BufTy).Contents (Elt F) → (⟨S850000, .i32⟩ : BufTy).Contents (Elt F) → (⟨S850000, .i32⟩ : BufTy).Contents (Elt F)),
    ternary main_v47 main_v49 main_v17 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v50 main_v51 (broadcastInDim S850000x1 ![0] bcast_S850000_S850000x1_0 : (⟨S850000, .i32⟩ : BufTy).Contents (Elt F) → (⟨S850000x1, .i32⟩ : BufTy).Contents (Elt F)),
    binary main_v44 main_v51 main_v52 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v45 main_v53 (broadcastInDim S850000x64 ![0, 1] bcast_S850000x1_S850000x64_0_1 : (⟨S850000x1, .f32⟩ : BufTy).Contents (Elt F) → (⟨S850000x64, .f32⟩ : BufTy).Contents (Elt F)),
    binary main_v53 main_v52 main_v54 (mulf : (⟨S850000x64, .f32⟩ : BufTy).Contents (Elt F) → (⟨S850000x64, .f32⟩ : BufTy).Contents (Elt F) → (⟨S850000x64, .f32⟩ : BufTy).Contents (Elt F)),
    nullary main_cst_10 (constant S_ .f32 0x00000000#32),
    unary main_cst_10 main_v55 (broadcastInDim S50000x64 ![] bcast_S_S50000x64 : (⟨S_, .f32⟩ : BufTy).Contents (Elt F) → (⟨S50000x64, .f32⟩ : BufTy).Contents (Elt F)),
    unary main_v19 main_v56 (broadcastInDim S850000x1 ![0] bcast_S850000_S850000x1_0 : (⟨S850000, .i32⟩ : BufTy).Contents (Elt F) → (⟨S850000x1, .i32⟩ : BufTy).Contents (Elt F)),
    ternary main_v55 main_v56 main_v54 main_v57 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v57 main_v59 main_v60 (addf : (⟨S50000x64, .f32⟩ : BufTy).Contents (Elt F) → (⟨S50000x64, .f32⟩ : BufTy).Contents (Elt F) → (⟨S50000x64, .f32⟩ : BufTy).Contents (Elt F)),
    unary main_v60 main_v61 (broadcastInDim S1x50000x64 ![1, 2] bcast_S50000x64_S1x50000x64_1_2 : (⟨S50000x64, .f32⟩ : BufTy).Contents (Elt F) → (⟨S1x50000x64, .f32⟩ : BufTy).Contents (Elt F)),
    unary main_v61 main_v62 (broadcastInDim S8x50000x64 ![0, 1, 2] bcast_S1x50000x64_S8x50000x64_0_1_2 : (⟨S1x50000x64, .f32⟩ : BufTy).Contents (Elt F) → (⟨S8x50000x64, .f32⟩ : BufTy).Contents (Elt F)),
    binary main_v10 main_v62 main_v63 ((fun a b => concatenate S8x50000x128 2 [⟨S8x50000x64, a⟩, ⟨S8x50000x64, b⟩] concatenates_S8x50000x64_S8x50000x64_S8x50000x128_d2) : (⟨S8x50000x64, .f32⟩ : BufTy).Contents (Elt F) → (⟨S8x50000x64, .f32⟩ : BufTy).Contents (Elt F) → (⟨S8x50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., nullary_bufs_sub .., unary_bufs_sub .., unary_bufs_sub .., binary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

/-- Every execution of the reference terminates with every buffer at the fold of the operations' results over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.LibAfterCut.lean ====
/-
  A line of host operations run in two parts.

  The contents of the buffers after a list of operations is a fold over the list, so the contents after a list cut at
  any position are the contents after its second part, started from the contents after its first part.  A buffer
  written in the first part and read in the second is thereby read from intermediate contents, so each part can be
  described by itself, as a function of the contents it starts from.
-/
import Idealize.ShloMosaic.Lib.StableHlo.Run

namespace Cert.Lib.AfterCut

open Idealize.ShloMosaic Idealize.ShloMosaic.StableHlo

variable {τ : Topo} {sig : RefSig} {Val : EltTy → Type}

/-- The contents after two lines, one after the other, are those after their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `n` operations. -/
theorem after_cut (n : ℕ) (l : List (HloOp τ sig Val)) (V : Valuation τ sig Val) :
    after l V = after (l.drop n) (after (l.take n) V) := by
  rw [← after_append, List.take_append_drop]

end Cert.Lib.AfterCut
-- ==== Proof.RefParts.lean ====
/-
  The reference's line of operations in four stretches.

  The first thirteen operations compute the blend 0.9 · temb + 0.1 · (x · wᵀ + b) for every batch entry.  The next five
  build the edge list with the self loops appended (an iota joined to itself, joined to the given edges): the only
  concatenations before the last line.  The next fifty-eight are the graph convolution over that edge list — degrees,
  normalisation, projection, gather, scale, scatter-add, bias — and read nothing of the blend.  The last three broadcast
  the convolved embedding over the batch and join it to the blend along the last axis.  The contents after the whole
  line are those after each stretch from those after the one before, so each stretch can be read by itself.
-/
import proofs.«138447_j12575664243034_2_alg».proof.Proof.RefOps
import proofs.«138447_j12575664243034_2_alg».proof.Proof.LibAfterCut

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The blend: operations 1 … 13. -/
abbrev opsBlend : List (HloOp τ sig (Elt F)) :=
  [ unary main_arg1 main_v0 (broadcastInDim S1x50000x64 ![1, 2] bcast_S50000x64_S1x50000x64_1_2 : (⟨S50000x64, .f32⟩ : BufTy).Contents (Elt F) → (⟨S1x50000x64, .f32⟩ : BufTy).Contents (Elt F)),
    nullary main_cst (constant S_ .f32 0x3F666666#32),
    unary main_cst main_v1 (broadcastInDim S1x50000x64 ![] bcast_S_S1x50000x64 : (⟨S_, .f32⟩ : BufTy).Contents (Elt F) → (⟨S1x50000x64, .f32⟩ : BufTy).Contents (Elt F)),
    binary main_v1 main_v0 main_v2 (mulf : (⟨S1x50000x64, .f32⟩ : BufTy).Contents (Elt F) → (⟨S1x50000x64, .f32⟩ : BufTy).Contents (Elt F) → (⟨S1x50000x64, .f32⟩ : BufTy).Contents (Elt F)),
    binary main_arg0 main_arg3 main_v3 ((fun l r => Host.dotGeneral dot_S8x50000x96_S64x96_S8x50000x64_2_1_01_0_n_n none l r) : (⟨S8x50000x96, .f32⟩ : BufTy).Contents (Elt F) → (⟨S64x96, .f32⟩ : BufTy).Contents (Elt F) → (⟨S8x50000x64, .f32⟩ : BufTy).Contents (Elt F)),
    unary main_arg4 main_v4 (broadcastInDim S1x1x64 ![2] bcast_S64_S1x1x64_2 : (⟨S64, .f32⟩ : BufTy).Contents (Elt F) → (⟨S1x1x64, .f32⟩ : BufTy).Contents (Elt F)),
    unary main_v4 main_v5 (broadcastInDim S8x50000x64 ![0, 1, 2] bcast_S1x1x64_S8x50000x64_0_1_2 : (⟨S1x1x64, .f32⟩ : BufTy).Contents (Elt F) → (⟨S8x50000x64, .f32⟩ : BufTy).Contents (Elt F)),
    binary main_v3 main_v5 main_v6 (addf : (⟨S8x50000x64, .f32⟩ : BufTy).Contents (Elt F) → (⟨S8x50000x64, .f32⟩ : BufTy).Contents (Elt F) → (⟨S8x50000x64, .f32⟩ : BufTy).Contents (Elt F)),
    nullary main_cst_0 (constant S_ .f32 0x3DCCCCCD#32),
    unary main_cst_0 main_v7 (broadcastInDim S8x50000x64 ![] bcast_S_S8x50000x64 : (⟨S_, .f32⟩ : BufTy).Contents (Elt F) → (⟨S8x50000x64, .f32⟩ : BufTy).Contents (Elt F)),
    binary main_v7 main_v6 main_v8 (mulf : (⟨S8x50000x64, .f32⟩ : BufTy).Contents (Elt F) → (⟨S8x50000x64, .f32⟩ : BufTy).Contents (Elt F) → (⟨S8x50000x64, .f32⟩ : BufTy).Contents (Elt F)),
    unary main_v2 main_v9 (broadcastInDim S8x50000x64 ![0, 1, 2] bcast_S1x50000x64_S8x50000x64_0_1_2 : (⟨S1x50000x64, .f32⟩ : BufTy).Contents (Elt F) → (⟨S8x50000x64, .f32⟩ : BufTy).Contents (Elt F)),
    binary main_v9 main_v8 main_v10 (addf : (⟨S8x50000x64, .f32⟩ : BufTy).Contents (Elt F) → (⟨S8x50000x64, .f32⟩ : BufTy).Contents (Elt F) → (⟨S8x50000x64, .f32⟩ : BufTy).Contents (Elt F)) ]

/-- The edge list with the self loops appended: operations 14 … 18. -/
abbrev opsEdges : List (HloOp τ sig (Elt F)) :=
  [ nullary main_v11 (iotaInDim S50000 32 0),
    unary main_v11 main_v12 (broadcastInDim S1x50000 ![1] bcast_S50000_S1x50000_1 : (⟨S50000, .i32⟩ : BufTy).Contents (Elt F) → (⟨S1x50000, .i32⟩ : BufTy).Contents (Elt F)),
    unary main_v11 main_v13 (broadcastInDim S1x50000 ![1] bcast_S50000_S1x50000_1 : (⟨S50000, .i32⟩ : BufTy).Contents (Elt F) → (⟨S1x50000, .i32⟩ : BufTy).Contents (Elt F)),
    binary main_v12 main_v13 main_v14 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)),
    binary main_arg7 main_v14 main_v15 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)) ]

/-- The graph convolution over that edge list: operations 19 … 76. -/
abbrev opsGraph : List (HloOp τ sig (Elt F)) :=
  [ unary main_v15 main_v16 ((extractStridedSlice S1x850000 ![0, 0] · slices_S2x850000_S1x850000_0_0) : (⟨S2x850000, .i32⟩ : BufTy).Contents (Elt F) → (⟨S1x850000, .i32⟩ : BufTy).Contents (Elt F)),
    reshape main_v16 main_v17 rfl shapeCasts_S1x850000_S850000,
    unary main_v15 main_v18 ((extractStridedSlice S1x850000 ![1, 0] · slices_S2x850000_S1x850000_1_0) : (⟨S2x850000, .i32⟩ : BufTy).Contents (Elt F) → (⟨S1x850000, .i32⟩ : BufTy).Contents (Elt F)),
    reshape main_v18 main_v19 rfl shapeCasts_S1x850000_S850000,
    nullary main_cst_1 (constant S_ .f32 0x3F800000#32),
    unary main_cst_1 main_v20 (broadcastInDim S850000 ![] bcast_S_S850000 : (⟨S_, .f32⟩ : BufTy).Contents (Elt F) → (⟨S850000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v19 main_v22 (broadcastInDim S850000x1 ![0] bcast_S850000_S850000x1_0 : (⟨S850000, .i32⟩ : BufTy).Contents (Elt F) → (⟨S850000x1, .i32⟩ : BufTy).Contents (Elt F)),
    ternary main_v21 main_v22 main_v20 main_v23 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_3 (constant S_ .f32 0x00000000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (cmpf .ogt : (⟨S50000, .f32⟩ : BufTy).Contents (Elt F) → (⟨S50000, .f32⟩ : BufTy).Contents (Elt F) → (⟨S50000, .i1⟩ : BufTy).Contents (Elt F)),
    unary main_v23 main_v26 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v25) (TRef.of (T := ⟨S50000, .f32⟩) main_v26) (TRef.of (T := ⟨S50000, .f32⟩) main_call0_v1) (TRef.of (T := ⟨S50000, .f32⟩) main_v27) select,
    nullary main_c (constantI S_ 32 0#32),
    unary main_c main_v28 (broadcastInDim S850000 ![] bcast_S_S850000 : (⟨S_, .i32⟩ : BufTy).Contents (Elt F) → (⟨S850000, .i32⟩ : BufTy).Contents (Elt F)),
    binary main_v17 main_v28 main_v29 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v30 (broadcastInDim S850000 ![] bcast_S_S850000 : (⟨S_, .i32⟩ : BufTy).Contents (Elt F) → (⟨S850000, .i32⟩ : BufTy).Contents (Elt F)),
    binary main_v17 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v17 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v27 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_6 (constantI S_ 32 0#32),
    unary main_c_6 main_v35 (broadcastInDim S850000 ![] bcast_S_S850000 : (⟨S_, .i32⟩ : BufTy).Contents (Elt F) → (⟨S850000, .i32⟩ : BufTy).Contents (Elt F)),
    binary main_v19 main_v35 main_v36 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v37 (broadcastInDim S850000 ![] bcast_S_S850000 : (⟨S_, .i32⟩ : BufTy).Contents (Elt F) → (⟨S850000, .i32⟩ : BufTy).Contents (Elt F)),
    binary main_v19 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v19 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_v27 main_v40 main_v41 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v34 main_v41 main_v42 (mulf : (⟨S850000, .f32⟩ : BufTy).Contents (Elt F) → (⟨S850000, .f32⟩ : BufTy).Contents (Elt F) → (⟨S850000, .f32⟩ : BufTy).Contents (Elt F)),
    unary main_arg5 main_v43 ((transpose S64x64 [1, 0] · transposes_S64x64_S64x64_1_0) : (⟨S64x64, .f32⟩ : BufTy).Contents (Elt F) → (⟨S64x64, .f32⟩ : BufTy).Contents (Elt F)),
    binary main_arg2 main_v43 main_v44 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v42 main_v45 (broadcastInDim S850000x1 ![0] bcast_S850000_S850000x1_0 : (⟨S850000, .f32⟩ : BufTy).Contents (Elt F) → (⟨S850000x1, .f32⟩ : BufTy).Contents (Elt F)),
    nullary main_c_8 (constantI S_ 32 0#32),
    unary main_c_8 main_v46 (broadcastInDim S850000 ![] bcast_S_S850000 : (⟨S_, .i32⟩ : BufTy).Contents (Elt F) → (⟨S850000, .i32⟩ : BufTy).Contents (Elt F)),
    binary main_v17 main_v46 main_v47 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v48 (broadcastInDim S850000 ![] bcast_S_S850000 : (⟨S_, .i32⟩ : BufTy).Contents (Elt F) → (⟨S850000, .i32⟩ : BufTy).Contents (Elt F)),
    binary main_v17 main_v48 main_v49 (addi : (⟨S850000, .i32⟩ : BufTy).Contents (Elt F) → (⟨S850000, .i32⟩ : BufTy).Contents (Elt F) → (⟨S850000, .i32⟩ : BufTy).Contents (Elt F)),
    ternary main_v47 main_v49 main_v17 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v50 main_v51 (broadcastInDim S850000x1 ![0] bcast_S850000_S850000x1_0 : (⟨S850000, .i32⟩ : BufTy).Contents (Elt F) → (⟨S850000x1, .i32⟩ : BufTy).Contents (Elt F)),
    binary main_v44 main_v51 main_v52 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v45 main_v53 (broadcastInDim S850000x64 ![0, 1] bcast_S850000x1_S850000x64_0_1 : (⟨S850000x1, .f32⟩ : BufTy).Contents (Elt F) → (⟨S850000x64, .f32⟩ : BufTy).Contents (Elt F)),
    binary main_v53 main_v52 main_v54 (mulf : (⟨S850000x64, .f32⟩ : BufTy).Contents (Elt F) → (⟨S850000x64, .f32⟩ : BufTy).Contents (Elt F) → (⟨S850000x64, .f32⟩ : BufTy).Contents (Elt F)),
    nullary main_cst_10 (constant S_ .f32 0x00000000#32),
    unary main_cst_10 main_v55 (broadcastInDim S50000x64 ![] bcast_S_S50000x64 : (⟨S_, .f32⟩ : BufTy).Contents (Elt F) → (⟨S50000x64, .f32⟩ : BufTy).Contents (Elt F)),
    unary main_v19 main_v56 (broadcastInDim S850000x1 ![0] bcast_S850000_S850000x1_0 : (⟨S850000, .i32⟩ : BufTy).Contents (Elt F) → (⟨S850000x1, .i32⟩ : BufTy).Contents (Elt F)),
    ternary main_v55 main_v56 main_v54 main_v57 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v57 main_v59 main_v60 (addf : (⟨S50000x64, .f32⟩ : BufTy).Contents (Elt F) → (⟨S50000x64, .f32⟩ : BufTy).Contents (Elt F) → (⟨S50000x64, .f32⟩ : BufTy).Contents (Elt F)) ]

/-- The broadcasts over the batch and the concatenation: operations 77 … 79. -/
abbrev opsJoin : List (HloOp τ sig (Elt F)) :=
  [ unary main_v60 main_v61 (broadcastInDim S1x50000x64 ![1, 2] bcast_S50000x64_S1x50000x64_1_2 : (⟨S50000x64, .f32⟩ : BufTy).Contents (Elt F) → (⟨S1x50000x64, .f32⟩ : BufTy).Contents (Elt F)),
    unary main_v61 main_v62 (broadcastInDim S8x50000x64 ![0, 1, 2] bcast_S1x50000x64_S8x50000x64_0_1_2 : (⟨S1x50000x64, .f32⟩ : BufTy).Contents (Elt F) → (⟨S8x50000x64, .f32⟩ : BufTy).Contents (Elt F)),
    binary main_v10 main_v62 main_v63 ((fun a b => concatenate S8x50000x128 2 [⟨S8x50000x64, a⟩, ⟨S8x50000x64, b⟩] concatenates_S8x50000x64_S8x50000x64_S8x50000x128_d2) : (⟨S8x50000x64, .f32⟩ : BufTy).Contents (Elt F) → (⟨S8x50000x64, .f32⟩ : BufTy).Contents (Elt F) → (⟨S8x50000x128, .f32⟩ : BufTy).Contents (Elt F)) ]

set_option maxRecDepth 8192 in
/-- The line is the four stretches in order. -/
theorem ops_split : (ops : List (HloOp τ sig (Elt F))) = opsBlend ++ (opsEdges ++ (opsGraph ++ opsJoin)) := rfl

/-- The contents after the line, stretch by stretch. -/
theorem after_ops (V : Valuation τ sig (Elt F)) :
    after ops V = after opsJoin (after opsGraph (after opsEdges (after opsBlend V))) := by
  rw [ops_split, Cert.Lib.AfterCut.after_append, Cert.Lib.AfterCut.after_append, Cert.Lib.AfterCut.after_append]

end Cert.ReferenceIdeal.RefRun

end
-- ==== Proof.KernelParts.lean ====
/-
  The kernel program's host operations before the launch, in two stretches.

  Before it launches the kernel the program computes, on the host, the graph convolution of the spatial embedding (the
  kernel's third operand) and the bias as a [1, 64] row (its fifth).  The first five operations build the edge list with
  the self loops appended — the only concatenations —, the remaining fifty-nine are the convolution over it, the called
  select-or-zero function's three operations in their place, and the reshape of the bias.  The arrays the region finds
  are the contents after the second stretch from those after the first.
-/
import proofs.«138447_j12575664243034_2_alg».proof.Proof.Gen.KernelIdeal.Frame
import proofs.«138447_j12575664243034_2_alg».proof.Proof.LibAfterCut

noncomputable section

namespace Cert.KernelIdeal.HostParts

open Cert.KernelIdeal Cert.KernelIdeal.Gen Idealize.ShloMosaic Idealize.ShloMosaic.TcCoe Idealize.SL.Sem

variable {F : FTy → Type} [FloatOps F]

/-- The edge list with the self loops appended: host operations 1 … 5. -/
abbrev kEdges : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.unary main_v0 main_v2 (broadcastInDim S1x50000 ![1] bcast_S50000_S1x50000_1 : (⟨S50000, .i32⟩ : BufTy).Contents (Elt F) → (⟨S1x50000, .i32⟩ : BufTy).Contents (Elt F)),
    StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)),
    StableHlo.binary main_arg7 main_v3 main_v4 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)) ]

/-- The graph convolution over that edge list, and the bias as a row: host operations 6 … 64. -/
abbrev kGraph : List (HloOp τ sig (Elt F)) :=
  [ StableHlo.unary main_v4 main_v5 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v5 main_v6 rfl shapeCasts_S1x850000_S850000,
    StableHlo.unary main_v4 main_v7 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v7 main_v8 rfl shapeCasts_S1x850000_S850000,
    StableHlo.nullary main_cst (constant S_ .f32 0x3F800000#32),
    StableHlo.unary main_cst main_v9 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v8 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.unary main_v12 main_v15 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v14 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v6 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v19 (broadcastInDim S850000 ![] bcast_S_S850000 : (⟨S_, .i32⟩ : BufTy).Contents (Elt F) → (⟨S850000, .i32⟩ : BufTy).Contents (Elt F)),
    StableHlo.binary main_v6 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v6 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v24 (broadcastInDim S850000 ![] bcast_S_S850000 : (⟨S_, .i32⟩ : BufTy).Contents (Elt F) → (⟨S850000, .i32⟩ : BufTy).Contents (Elt F)),
    StableHlo.binary main_v8 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v26 (broadcastInDim S850000 ![] bcast_S_S850000 : (⟨S_, .i32⟩ : BufTy).Contents (Elt F) → (⟨S850000, .i32⟩ : BufTy).Contents (Elt F)),
    StableHlo.binary main_v8 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v8 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.unary main_arg5 main_v32 ((transpose S64x64 [1, 0] · transposes_S64x64_S64x64_1_0) : (⟨S64x64, .f32⟩ : BufTy).Contents (Elt F) → (⟨S64x64, .f32⟩ : BufTy).Contents (Elt F)),
    StableHlo.binary main_arg2 main_v32 main_v33 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v31 main_v34 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v35 (broadcastInDim S850000 ![] bcast_S_S850000 : (⟨S_, .i32⟩ : BufTy).Contents (Elt F) → (⟨S850000, .i32⟩ : BufTy).Contents (Elt F)),
    StableHlo.binary main_v6 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v37 (broadcastInDim S850000 ![] bcast_S_S850000 : (⟨S_, .i32⟩ : BufTy).Contents (Elt F) → (⟨S850000, .i32⟩ : BufTy).Contents (Elt F)),
    StableHlo.binary main_v6 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v6 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_v33 main_v40 main_v41 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v34 main_v42 (broadcastInDim S850000x64 ![0, 1] bcast_S850000x1_S850000x64_0_1 : (⟨S850000x1, .f32⟩ : BufTy).Contents (Elt F) → (⟨S850000x64, .f32⟩ : BufTy).Contents (Elt F)),
    StableHlo.binary main_v42 main_v41 main_v43 (mulf : (⟨S850000x64, .f32⟩ : BufTy).Contents (Elt F) → (⟨S850000x64, .f32⟩ : BufTy).Contents (Elt F) → (⟨S850000x64, .f32⟩ : BufTy).Contents (Elt F)),
    StableHlo.nullary main_cst_8 (constant S_ .f32 0x00000000#32),
    StableHlo.unary main_cst_8 main_v44 (broadcastInDim S50000x64 ![] bcast_S_S50000x64 : (⟨S_, .f32⟩ : BufTy).Contents (Elt F) → (⟨S50000x64, .f32⟩ : BufTy).Contents (Elt F)),
    StableHlo.unary main_v8 main_v45 (broadcastInDim S850000x1 ![0] bcast_S850000_S850000x1_0 : (⟨S850000, .i32⟩ : BufTy).Contents (Elt F) → (⟨S850000x1, .i32⟩ : BufTy).Contents (Elt F)),
    StableHlo.ternary main_v44 main_v45 main_v43 main_v46 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg6 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S50000x64 ![0, 1] bcast_S1x64_S50000x64_0_1 : (⟨S1x64, .f32⟩ : BufTy).Contents (Elt F) → (⟨S50000x64, .f32⟩ : BufTy).Contents (Elt F)),
    StableHlo.binary main_v46 main_v48 main_v49 (addf : (⟨S50000x64, .f32⟩ : BufTy).Contents (Elt F) → (⟨S50000x64, .f32⟩ : BufTy).Contents (Elt F) → (⟨S50000x64, .f32⟩ : BufTy).Contents (Elt F)),
    StableHlo.reshape main_arg4 main_v50 rfl shapeCasts_S64_S1x64 ]

set_option maxRecDepth 8192 in
/-- The host operations before the launch are the two stretches in order. -/
theorem hostOps_split : (List.flatten [hostOps0, hostOps0_1, hostOps0_2] : List (HloOp τ sig (Elt F))) = kEdges ++ kGraph := rfl

/-- The arrays the region finds: the contents after the second stretch from those after the first. -/
theorem V_eq (m : (ℓ : Loc nD τ sig) → Buf (Elt F) ℓ) (c : Dev nD) (b : Ref sig .tc) :
    V m c b = StableHlo.after kGraph (StableHlo.after kEdges (fun b => m (c, b))) b := by
  show StableHlo.after (List.flatten [hostOps0, hostOps0_1, hostOps0_2]) _ _ = _
  rw [hostOps_split, Cert.Lib.AfterCut.after_append]

end Cert.KernelIdeal.HostParts

end
-- ==== Proof.ConvAgree.lean ====
/-
  The two programs compute the same graph convolution.

  Both programs run the same operations on the spatial embedding, the convolution weight and bias and the edge list:
  the edge list with the self loops appended; the degrees, by a scatter-add of ones over the edge targets; their
  inverse square roots where positive, zero elsewhere; the product of those at the two ends of every edge; the
  projected features gathered at the sources, scaled by that product and scatter-added into the targets; plus the bias.
  Reading each program's stretch back as the composition of its operations, the two compositions are the same term of
  the same four arrays.  (The select-or-zero step is a called function in both; its operations move values into its own
  buffers' types and back, which changes nothing.)
-/
import proofs.«138447_j12575664243034_2_alg».proof.Proof.RefParts
import proofs.«138447_j12575664243034_2_alg».proof.Proof.KernelParts
import Idealize.ShloMosaic.PureOps.Ideal

noncomputable section

namespace Cert.Blend

open Idealize.ShloMosaic Idealize.ShloMosaic.TcCoe Idealize.SL.Sem Idealize.ShloMosaic.StableHlo

variable (WR : Valuation Cert.ReferenceIdeal.τ Cert.ReferenceIdeal.sig (Elt Ideal))
  (WK : Valuation Cert.KernelIdeal.τ Cert.KernelIdeal.sig (Elt Ideal))

/-- From equal edge lists the two programs build equal edge lists with self loops. -/
theorem edges_agree
    (h7 : (WR (Proc.devRef .tc Cert.ReferenceIdeal.main_arg7) : (⟨Cert.ReferenceIdeal.S2x800000, .i32⟩ : BufTy).Contents (Elt Ideal))
      = WK (Proc.devRef .tc Cert.KernelIdeal.main_arg7)) :
    (after (Cert.ReferenceIdeal.RefRun.opsEdges (F := Ideal)) WR (Proc.devRef .tc Cert.ReferenceIdeal.main_v15)
        : (⟨Cert.ReferenceIdeal.S2x850000, .i32⟩ : BufTy).Contents (Elt Ideal))
      = after (Cert.KernelIdeal.HostParts.kEdges (F := Ideal)) WK (Proc.devRef .tc Cert.KernelIdeal.main_v4) := by
  after_results
  rw [h7]

set_option maxRecDepth 16384 in
set_option maxHeartbeats 8000000 in
/-- From equal spatial embeddings, convolution weights and biases and equal edge lists with self loops, the two
    programs' convolutions are equal. -/
theorem graph_agree
    (h2 : (WR (Proc.devRef .tc Cert.ReferenceIdeal.main_arg2) : (⟨Cert.ReferenceIdeal.S50000x64, .f32⟩ : BufTy).Contents (Elt Ideal))
      = WK (Proc.devRef .tc Cert.KernelIdeal.main_arg2))
    (h5 : (WR (Proc.devRef .tc Cert.ReferenceIdeal.main_arg5) : (⟨Cert.ReferenceIdeal.S64x64, .f32⟩ : BufTy).Contents (Elt Ideal))
      = WK (Proc.devRef .tc Cert.KernelIdeal.main_arg5))
    (h6 : (WR (Proc.devRef .tc Cert.ReferenceIdeal.main_arg6) : (⟨Cert.ReferenceIdeal.S64, .f32⟩ : BufTy).Contents (Elt Ideal))
      = WK (Proc.devRef .tc Cert.KernelIdeal.main_arg6))
    (hE : (WR (Proc.devRef .tc Cert.ReferenceIdeal.main_v15) : (⟨Cert.ReferenceIdeal.S2x850000, .i32⟩ : BufTy).Contents (Elt Ideal))
      = WK (Proc.devRef .tc Cert.KernelIdeal.main_v4)) :
    (after (Cert.ReferenceIdeal.RefRun.opsGraph (F := Ideal)) WR (Proc.devRef .tc Cert.ReferenceIdeal.main_v60)
        : (⟨Cert.ReferenceIdeal.S50000x64, .f32⟩ : BufTy).Contents (Elt Ideal))
      = after (Cert.KernelIdeal.HostParts.kGraph (F := Ideal)) WK (Proc.devRef .tc Cert.KernelIdeal.main_v49) := by
  after_results_simp
  rw [h2, h5, h6, hE]
  rfl

/-- The kernel's bias operand is the bias argument as a [1, 64] row. -/
theorem bias_row :
    (after (Cert.KernelIdeal.HostParts.kGraph (F := Ideal)) WK (Proc.devRef .tc Cert.KernelIdeal.main_v50)
        : (⟨Cert.KernelIdeal.S1x64, .f32⟩ : BufTy).Contents (Elt Ideal))
      = shapeCast Cert.KernelIdeal.S1x64 (WK (Proc.devRef .tc Cert.KernelIdeal.main_arg4) : (⟨Cert.KernelIdeal.S64, .f32⟩ : BufTy).Contents (Elt Ideal))
          Cert.KernelIdeal.Gen.shapeCasts_S64_S1x64 := by
  after_results_simp
  rfl

end Cert.Blend

end
-- ==== Proof.RefValue.lean ====
/-
  The reference's result array as the whole function of its arguments.

  Read back stretch by stretch: the blend stretch leaves 0.9 · temb[r, d] + 0.1 · (Σ_k x[b, r, k] · w[d, k] + bias[d]) at
  (b, r, d) — the host's general product with one contracted axis is that plain sum on the extended reals, and the
  broadcasts only repeat entries —; the last stretch joins it, along the last axis, to the convolved spatial embedding
  repeated over the batch.  So the result at (b, r, j) is the blend for j < 64 and the convolved entry (r, j − 64) from
  lane 64 on: the same whole function the kernel's result array holds.
-/
import proofs.«138447_j12575664243034_2_alg».proof.Proof.RefParts
import proofs.«138447_j12575664243034_2_alg».proof.Proof.Block
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe
open Idealize.ShloMosaic.ValueIdx Idealize.SL.Sem Idealize.ShloMosaic.StableHlo Cert.Blend

variable (W : Valuation τ sig (Elt Ideal))

/-- The last stretch: the blend joined to the convolved embedding repeated over the batch. -/
theorem join_eq :
    after (opsJoin (F := Ideal)) W (Proc.devRef .tc main_v63)
      = concatenate S8x50000x128 2
          [⟨S8x50000x64, (W (Proc.devRef .tc main_v10) : (⟨S8x50000x64, .f32⟩ : BufTy).Contents (Elt Ideal))⟩,
           ⟨S8x50000x64, broadcastInDim S8x50000x64 ![0, 1, 2] bcast_S1x50000x64_S8x50000x64_0_1_2
              (broadcastInDim S1x50000x64 ![1, 2] bcast_S50000x64_S1x50000x64_1_2
                (W (Proc.devRef .tc main_v60) : (⟨S50000x64, .f32⟩ : BufTy).Contents (Elt Ideal)))⟩]
          concatenates_S8x50000x64_S8x50000x64_S8x50000x128_d2 := by
  after_results

/-- The convolved embedding repeated over the batch, at (b, r, d): its entry (r, d). -/
theorem repeat_apply (s : (⟨S50000x64, .f32⟩ : BufTy).Contents (Elt Ideal)) (b : Fin 8) (r : Fin 50000) (d : Fin 64) :
    broadcastInDim S8x50000x64 ![0, 1, 2] bcast_S1x50000x64_S8x50000x64_0_1_2
      (broadcastInDim S1x50000x64 ![1, 2] bcast_S50000x64_S1x50000x64_1_2 s) (ix3 b r d) = s (ix2 r d) := by
  refine (broadcastInDim_apply _ bcast_S1x50000x64_S8x50000x64_0_1_2 _ (ix3 b r d) (ix3 (0 : Fin 1) r d) (fun a => ?_)).trans ?_
  · match a with
    | ⟨0, _⟩ => show (0 : ℕ) = if (1 : ℕ) = 1 then 0 else b.val; rw [if_pos rfl]
    | ⟨1, _⟩ => show r.val = if (50000 : ℕ) = 1 then 0 else r.val; rw [if_neg (by decide)]
    | ⟨2, _⟩ => show d.val = if (64 : ℕ) = 1 then 0 else d.val; rw [if_neg (by decide)]
  · refine broadcastInDim_apply _ bcast_S50000x64_S1x50000x64_1_2 s (ix3 (0 : Fin 1) r d) (ix2 r d) (fun a => ?_)
    match a with
    | ⟨0, _⟩ => show r.val = if (50000 : ℕ) = 1 then 0 else r.val; rw [if_neg (by decide)]
    | ⟨1, _⟩ => show d.val = if (64 : ℕ) = 1 then 0 else d.val; rw [if_neg (by decide)]

/-- The result of the last stretch at (b, r, j): the blend buffer for j < 64, the convolved buffer at (r, j − 64) from
    lane 64 on. -/
theorem join_at (i : S8x50000x128.Idx) :
    after (opsJoin (F := Ideal)) W (Proc.devRef .tc main_v63) i
      = if h : (i 2).val < 64 then
          (W (Proc.devRef .tc main_v10) : (⟨S8x50000x64, .f32⟩ : BufTy).Contents (Elt Ideal))
            (ix3 (⟨(i 0).val, (i 0).isLt⟩ : Fin 8) (⟨(i 1).val, (i 1).isLt⟩ : Fin 50000) (⟨(i 2).val, h⟩ : Fin 64))
        else (W (Proc.devRef .tc main_v60) : (⟨S50000x64, .f32⟩ : BufTy).Contents (Elt Ideal))
            (ix2 (⟨(i 1).val, (i 1).isLt⟩ : Fin 50000) (⟨(i 2).val - 64, by have := (i 2).isLt; change (i 2).val < 128 at this; omega⟩ : Fin 64)) := by
  rw [join_eq]
  have hi2 : (i 2).val < 128 := (i 2).isLt
  by_cases h : (i 2).val < 64
  · rw [dif_pos h]
    refine concatenate_pair_apply_left (t := S8x50000x128) (s₁ := S8x50000x64) (s₂ := S8x50000x64) (2 : Fin 3) _ _
      concatenates_S8x50000x64_S8x50000x64_S8x50000x128_d2 i rfl
      (ix3 (⟨(i 0).val, (i 0).isLt⟩ : Fin 8) (⟨(i 1).val, (i 1).isLt⟩ : Fin 50000) (⟨(i 2).val, h⟩ : Fin 64)) (fun b => ?_)
    match b with
    | ⟨0, _⟩ => rfl
    | ⟨1, _⟩ => rfl
    | ⟨2, _⟩ => rfl
  · rw [dif_neg h]
    refine (concatenate_pair_apply_right (t := S8x50000x128) (s₁ := S8x50000x64) (s₂ := S8x50000x64) (2 : Fin 3) _ _
      concatenates_S8x50000x64_S8x50000x64_S8x50000x128_d2 i rfl rfl
      (ix3 (⟨(i 0).val, (i 0).isLt⟩ : Fin 8) (⟨(i 1).val, (i 1).isLt⟩ : Fin 50000) (⟨(i 2).val - 64, by omega⟩ : Fin 64))
      (fun b hb => ?_) ?_).trans (repeat_apply _ _ _ _)
    · match b with
      | ⟨0, _⟩ => rfl
      | ⟨1, _⟩ => rfl
      | ⟨2, _⟩ => exact absurd rfl hb
    · show (i 2).val - 64 + 64 = (i 2).val
      omega

/-- Row coordinates of the host product's left operand: the output's batch entry and node. -/
theorem dot_lhs0 (j : S8x50000x64.Idx) (q : dot_S8x50000x96_S64x96_S8x50000x64_2_1_01_0_n_n.contr.Idx) :
    (dot_S8x50000x96_S64x96_S8x50000x64_2_1_01_0_n_n.lhsIdx j q 0).val = (j 0).val := by
  unfold DotDims.lhsIdx
  rw [dif_neg (show ¬(0 : Fin S8x50000x96.rank) ∈ dot_S8x50000x96_S64x96_S8x50000x64_2_1_01_0_n_n.lhsBatch by decide),
    dif_pos (show (0 : Fin S8x50000x96.rank) ∈ dot_S8x50000x96_S64x96_S8x50000x64_2_1_01_0_n_n.lhsNonContracting by decide)]
  rfl
theorem dot_lhs1 (j : S8x50000x64.Idx) (q : dot_S8x50000x96_S64x96_S8x50000x64_2_1_01_0_n_n.contr.Idx) :
    (dot_S8x50000x96_S64x96_S8x50000x64_2_1_01_0_n_n.lhsIdx j q 1).val = (j 1).val := by
  unfold DotDims.lhsIdx
  rw [dif_neg (show ¬(1 : Fin S8x50000x96.rank) ∈ dot_S8x50000x96_S64x96_S8x50000x64_2_1_01_0_n_n.lhsBatch by decide),
    dif_pos (show (1 : Fin S8x50000x96.rank) ∈ dot_S8x50000x96_S64x96_S8x50000x64_2_1_01_0_n_n.lhsNonContracting by decide)]
  rfl
/-- Row coordinate of its right operand: the output's lane. -/
theorem dot_rhs0 (j : S8x50000x64.Idx) (q : dot_S8x50000x96_S64x96_S8x50000x64_2_1_01_0_n_n.contr.Idx) :
    (dot_S8x50000x96_S64x96_S8x50000x64_2_1_01_0_n_n.rhsIdx j q 0).val = (j 2).val := by
  unfold DotDims.rhsIdx
  rw [dif_neg (show ¬(0 : Fin S64x96.rank) ∈ dot_S8x50000x96_S64x96_S8x50000x64_2_1_01_0_n_n.rhsBatch by decide),
    dif_pos (show (0 : Fin S64x96.rank) ∈ dot_S8x50000x96_S64x96_S8x50000x64_2_1_01_0_n_n.rhsNonContracting by decide)]
  rfl

/-- The host's product of x with the weight, contracted over the window axis, at (b, r, d): the plain sum. -/
theorem dot_part (A0 : FVec Ideal S8x50000x96 .f32) (A3 : FVec Ideal S64x96 .f32)
    (b : Fin 8) (r : Fin 50000) (d : Fin 64) :
    Host.dotGeneral (F := Ideal) dot_S8x50000x96_S64x96_S8x50000x64_2_1_01_0_n_n none A0 A3 (ix3 b r d)
      = ∑ k : Fin 96, A0 (ix3 b r k) * A3 (ix2 d k) := by
  simp only [Host.dotGeneral]
  rw [Ideal.dotGeneral_apply, ← Equiv.sum_comp (contrEquiv1 dot_S8x50000x96_S64x96_S8x50000x64_2_1_01_0_n_n 96 rfl rfl).symm]
  refine Finset.sum_congr rfl fun k _ => ?_
  have hk := contrEquiv1_symm_val dot_S8x50000x96_S64x96_S8x50000x64_2_1_01_0_n_n 96 rfl rfl k
  have el : dot_S8x50000x96_S64x96_S8x50000x64_2_1_01_0_n_n.lhsIdx (ix3 b r d)
      ((contrEquiv1 dot_S8x50000x96_S64x96_S8x50000x64_2_1_01_0_n_n 96 rfl rfl).symm k) = ix3 b r k := funext fun a => Fin.ext (by
    match a with
    | ⟨0, _⟩ => exact dot_lhs0 _ _
    | ⟨1, _⟩ => exact dot_lhs1 _ _
    | ⟨2, _⟩ => exact (DotDims.lhsIdx_val_of_single (d := dot_S8x50000x96_S64x96_S8x50000x64_2_1_01_0_n_n) (cl := 2) rfl _ _).trans hk)
  have er : dot_S8x50000x96_S64x96_S8x50000x64_2_1_01_0_n_n.rhsIdx (ix3 b r d)
      ((contrEquiv1 dot_S8x50000x96_S64x96_S8x50000x64_2_1_01_0_n_n 96 rfl rfl).symm k) = ix2 d k := funext fun a => Fin.ext (by
    match a with
    | ⟨0, _⟩ => exact dot_rhs0 _ _
    | ⟨1, _⟩ => exact (DotDims.rhsIdx_val_of_single (d := dot_S8x50000x96_S64x96_S8x50000x64_2_1_01_0_n_n) (cr := 1) rfl _ _).trans hk)
  rw [el, er]

/-- 0.9 times the temporal embedding, repeated over the batch, at (b, r, d). -/
theorem tem_part (A1 : (⟨S50000x64, .f32⟩ : BufTy).Contents (Elt Ideal)) (b : Fin 8) (r : Fin 50000) (d : Fin 64) :
    broadcastInDim S8x50000x64 ![0, 1, 2] bcast_S1x50000x64_S8x50000x64_0_1_2
        (mulf (broadcastInDim S1x50000x64 ![] bcast_S_S1x50000x64 (constant (F := Ideal) S_ .f32 0x3F666666#32))
          (broadcastInDim S1x50000x64 ![1, 2] bcast_S50000x64_S1x50000x64_1_2 A1)) (ix3 b r d)
      = Ideal.ofBits .f32 0x3F666666#32 * A1 (ix2 r d) := by
  refine (broadcastInDim_apply _ bcast_S1x50000x64_S8x50000x64_0_1_2 _ (ix3 b r d) (ix3 (0 : Fin 1) r d) (fun a => ?_)).trans ?_
  · match a with
    | ⟨0, _⟩ => show (0 : ℕ) = if (1 : ℕ) = 1 then 0 else b.val; rw [if_pos rfl]
    | ⟨1, _⟩ => show r.val = if (50000 : ℕ) = 1 then 0 else r.val; rw [if_neg (by decide)]
    | ⟨2, _⟩ => show d.val = if (64 : ℕ) = 1 then 0 else d.val; rw [if_neg (by decide)]
  · rw [mulf_apply]
    refine congrArg (Ideal.ofBits .f32 0x3F666666#32 * ·) ?_
    refine broadcastInDim_apply _ bcast_S50000x64_S1x50000x64_1_2 A1 (ix3 (0 : Fin 1) r d) (ix2 r d) (fun a => ?_)
    match a with
    | ⟨0, _⟩ => show r.val = if (50000 : ℕ) = 1 then 0 else r.val; rw [if_neg (by decide)]
    | ⟨1, _⟩ => show d.val = if (64 : ℕ) = 1 then 0 else d.val; rw [if_neg (by decide)]

/-- The bias repeated over batch and nodes, at (b, r, d). -/
theorem bias_part (A4 : (⟨S64, .f32⟩ : BufTy).Contents (Elt Ideal)) (b : Fin 8) (r : Fin 50000) (d : Fin 64) :
    broadcastInDim S8x50000x64 ![0, 1, 2] bcast_S1x1x64_S8x50000x64_0_1_2
        (broadcastInDim S1x1x64 ![2] bcast_S64_S1x1x64_2 A4) (ix3 b r d) = A4 (ix1 d) := by
  refine (broadcastInDim_apply _ bcast_S1x1x64_S8x50000x64_0_1_2 _ (ix3 b r d) (ix3 (0 : Fin 1) (0 : Fin 1) d) (fun a => ?_)).trans ?_
  · match a with
    | ⟨0, _⟩ => show (0 : ℕ) = if (1 : ℕ) = 1 then 0 else b.val; rw [if_pos rfl]
    | ⟨1, _⟩ => show (0 : ℕ) = if (1 : ℕ) = 1 then 0 else r.val; rw [if_pos rfl]
    | ⟨2, _⟩ => show d.val = if (64 : ℕ) = 1 then 0 else d.val; rw [if_neg (by decide)]
  · refine broadcastInDim_apply _ bcast_S64_S1x1x64_2 A4 (ix3 (0 : Fin 1) (0 : Fin 1) d) (ix1 d) (fun a => ?_)
    match a with
    | ⟨0, _⟩ => show d.val = if (64 : ℕ) = 1 then 0 else d.val; rw [if_neg (by decide)]

/-- The blend stretch at (b, r, d). -/
theorem blend_at (b : Fin 8) (r : Fin 50000) (d : Fin 64) :
    (after (opsBlend (F := Ideal)) W (Proc.devRef .tc main_v10) : (⟨S8x50000x64, .f32⟩ : BufTy).Contents (Elt Ideal)) (ix3 b r d)
      = blend (fun k => (W (Proc.devRef .tc main_arg0) : (⟨S8x50000x96, .f32⟩ : BufTy).Contents (Elt Ideal)) (ix3 b r k))
          (fun k => (W (Proc.devRef .tc main_arg3) : (⟨S64x96, .f32⟩ : BufTy).Contents (Elt Ideal)) (ix2 d k))
          ((W (Proc.devRef .tc main_arg1) : (⟨S50000x64, .f32⟩ : BufTy).Contents (Elt Ideal)) (ix2 r d))
          ((W (Proc.devRef .tc main_arg4) : (⟨S64, .f32⟩ : BufTy).Contents (Elt Ideal)) (ix1 d)) := by
  after_results_simp
  rw [addf_apply, mulf_apply, addf_apply, tem_part, dot_part, bias_part]
  rfl

end Cert.ReferenceIdeal.RefValue

end
-- ==== Proof.Bridge.lean ====
/-
  The two results are one array.

  The kernel's result array is the whole function (blend below lane 64, convolved spatial entry from lane 64 on) of the
  arrays its region finds: its own arguments x, temporal embedding and weight, the graph convolution its host operations
  computed, and the bias as a row.  The reference's result, read back stretch by stretch, is the same whole function of
  its arguments and of its own graph convolution.  The two graph convolutions are the same term of arguments that agree,
  the bias row read at (0, d) is the bias at d, and the other ingredients are arguments that agree: so the two results are
  equal, entry by entry.
-/
import proofs.«138447_j12575664243034_2_alg».proof.Proof.KernelValue
import proofs.«138447_j12575664243034_2_alg».proof.Proof.ConvAgree
import proofs.«138447_j12575664243034_2_alg».proof.Proof.RefValue

set_option maxRecDepth 16384

noncomputable section

namespace Cert.Blend

open Idealize.ShloMosaic Idealize.ShloMosaic.TcCoe Idealize.ShloMosaic.ValueIdx Idealize.SL.Sem Idealize.ShloMosaic.StableHlo

section Frames

variable (WR : Valuation Cert.ReferenceIdeal.τ Cert.ReferenceIdeal.sig (Elt Ideal))
  (WK : Valuation Cert.KernelIdeal.τ Cert.KernelIdeal.sig (Elt Ideal))

/-! The stretches leave alone the buffers they do not write. -/

theorem graph_keeps_blend : after (Cert.ReferenceIdeal.RefRun.opsGraph (F := Ideal)) WR (Proc.devRef .tc Cert.ReferenceIdeal.main_v10) = WR (Proc.devRef .tc Cert.ReferenceIdeal.main_v10) := by
  after_results_simp
theorem edges_keeps_blend : after (Cert.ReferenceIdeal.RefRun.opsEdges (F := Ideal)) WR (Proc.devRef .tc Cert.ReferenceIdeal.main_v10) = WR (Proc.devRef .tc Cert.ReferenceIdeal.main_v10) := by
  after_results_simp
theorem edges_keeps_main_arg2 : after (Cert.ReferenceIdeal.RefRun.opsEdges (F := Ideal)) WR (Proc.devRef .tc Cert.ReferenceIdeal.main_arg2) = WR (Proc.devRef .tc Cert.ReferenceIdeal.main_arg2) := by
  after_results_simp
theorem edges_keeps_main_arg5 : after (Cert.ReferenceIdeal.RefRun.opsEdges (F := Ideal)) WR (Proc.devRef .tc Cert.ReferenceIdeal.main_arg5) = WR (Proc.devRef .tc Cert.ReferenceIdeal.main_arg5) := by
  after_results_simp
theorem edges_keeps_main_arg6 : after (Cert.ReferenceIdeal.RefRun.opsEdges (F := Ideal)) WR (Proc.devRef .tc Cert.ReferenceIdeal.main_arg6) = WR (Proc.devRef .tc Cert.ReferenceIdeal.main_arg6) := by
  after_results_simp
theorem blend_keeps_main_arg2 : after (Cert.ReferenceIdeal.RefRun.opsBlend (F := Ideal)) WR (Proc.devRef .tc Cert.ReferenceIdeal.main_arg2) = WR (Proc.devRef .tc Cert.ReferenceIdeal.main_arg2) := by
  after_results_simp
theorem blend_keeps_main_arg5 : after (Cert.ReferenceIdeal.RefRun.opsBlend (F := Ideal)) WR (Proc.devRef .tc Cert.ReferenceIdeal.main_arg5) = WR (Proc.devRef .tc Cert.ReferenceIdeal.main_arg5) := by
  after_results_simp
theorem blend_keeps_main_arg6 : after (Cert.ReferenceIdeal.RefRun.opsBlend (F := Ideal)) WR (Proc.devRef .tc Cert.ReferenceIdeal.main_arg6) = WR (Proc.devRef .tc Cert.ReferenceIdeal.main_arg6) := by
  after_results_simp
theorem blend_keeps_main_arg7 : after (Cert.ReferenceIdeal.RefRun.opsBlend (F := Ideal)) WR (Proc.devRef .tc Cert.ReferenceIdeal.main_arg7) = WR (Proc.devRef .tc Cert.ReferenceIdeal.main_arg7) := by
  after_results_simp
theorem kedges_keeps_main_arg2 : after (Cert.KernelIdeal.HostParts.kEdges (F := Ideal)) WK (Proc.devRef .tc Cert.KernelIdeal.main_arg2) = WK (Proc.devRef .tc Cert.KernelIdeal.main_arg2) := by
  after_results_simp
theorem kedges_keeps_main_arg4 : after (Cert.KernelIdeal.HostParts.kEdges (F := Ideal)) WK (Proc.devRef .tc Cert.KernelIdeal.main_arg4) = WK (Proc.devRef .tc Cert.KernelIdeal.main_arg4) := by
  after_results_simp
theorem kedges_keeps_main_arg5 : after (Cert.KernelIdeal.HostParts.kEdges (F := Ideal)) WK (Proc.devRef .tc Cert.KernelIdeal.main_arg5) = WK (Proc.devRef .tc Cert.KernelIdeal.main_arg5) := by
  after_results_simp
theorem kedges_keeps_main_arg6 : after (Cert.KernelIdeal.HostParts.kEdges (F := Ideal)) WK (Proc.devRef .tc Cert.KernelIdeal.main_arg6) = WK (Proc.devRef .tc Cert.KernelIdeal.main_arg6) := by
  after_results_simp
theorem ops_keeps_main_arg0 : after (Cert.ReferenceIdeal.RefRun.ops (F := Ideal)) WR (Proc.devRef .tc Cert.ReferenceIdeal.main_arg0) = WR (Proc.devRef .tc Cert.ReferenceIdeal.main_arg0) := by
  after_results_simp
theorem ops_keeps_main_arg1 : after (Cert.ReferenceIdeal.RefRun.ops (F := Ideal)) WR (Proc.devRef .tc Cert.ReferenceIdeal.main_arg1) = WR (Proc.devRef .tc Cert.ReferenceIdeal.main_arg1) := by
  after_results_simp
theorem ops_keeps_main_arg2 : after (Cert.ReferenceIdeal.RefRun.ops (F := Ideal)) WR (Proc.devRef .tc Cert.ReferenceIdeal.main_arg2) = WR (Proc.devRef .tc Cert.ReferenceIdeal.main_arg2) := by
  after_results_simp
theorem ops_keeps_main_arg3 : after (Cert.ReferenceIdeal.RefRun.ops (F := Ideal)) WR (Proc.devRef .tc Cert.ReferenceIdeal.main_arg3) = WR (Proc.devRef .tc Cert.ReferenceIdeal.main_arg3) := by
  after_results_simp
theorem ops_keeps_main_arg4 : after (Cert.ReferenceIdeal.RefRun.ops (F := Ideal)) WR (Proc.devRef .tc Cert.ReferenceIdeal.main_arg4) = WR (Proc.devRef .tc Cert.ReferenceIdeal.main_arg4) := by
  after_results_simp
theorem ops_keeps_main_arg5 : after (Cert.ReferenceIdeal.RefRun.ops (F := Ideal)) WR (Proc.devRef .tc Cert.ReferenceIdeal.main_arg5) = WR (Proc.devRef .tc Cert.ReferenceIdeal.main_arg5) := by
  after_results_simp
theorem ops_keeps_main_arg6 : after (Cert.ReferenceIdeal.RefRun.ops (F := Ideal)) WR (Proc.devRef .tc Cert.ReferenceIdeal.main_arg6) = WR (Proc.devRef .tc Cert.ReferenceIdeal.main_arg6) := by
  after_results_simp
theorem ops_keeps_main_arg7 : after (Cert.ReferenceIdeal.RefRun.ops (F := Ideal)) WR (Proc.devRef .tc Cert.ReferenceIdeal.main_arg7) = WR (Proc.devRef .tc Cert.ReferenceIdeal.main_arg7) := by
  after_results_simp

end Frames

/-- The bias row at (0, d) is the bias at d. -/
theorem row_apply (v : (⟨Cert.KernelIdeal.S64, .f32⟩ : BufTy).Contents (Elt Ideal)) (d : Fin 64) :
    shapeCast Cert.KernelIdeal.S1x64 v Cert.KernelIdeal.Gen.shapeCasts_S64_S1x64 (ix2 (0 : Fin 1) d) = v (ix1 d) := by
  refine shapeCast_apply v Cert.KernelIdeal.Gen.shapeCasts_S64_S1x64 (ix2 (0 : Fin 1) d) (ix1 d) ?_
  rw [Shape.rowMajor_val_one, Shape.rowMajor_val_two]
  show d.val = (0 : ℕ) * 64 + d.val
  omega

open Cert.KernelIdeal.Gen in
set_option maxHeartbeats 2000000 in
/-- From memories that agree on the eight arguments, the reference's result array after its line of operations is the
    whole function the kernel's result array holds. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (after (Cert.ReferenceIdeal.RefRun.ops (F := Ideal)) (launchContents m' c) (Proc.devRef .tc Cert.ReferenceIdeal.main_v63)
        : (⟨Cert.ReferenceIdeal.S8x50000x128, .f32⟩ : BufTy).Contents (Elt Ideal))
      = regionFn m c := by
  -- the convolved spatial embedding the kernel's region finds, and the bias row
  have hconv : V m c (Pipeline.arrRef Cert.KernelIdeal.spec0 2)
      = after (Cert.KernelIdeal.HostParts.kGraph (F := Ideal)) (after (Cert.KernelIdeal.HostParts.kEdges (F := Ideal)) (fun b => m (c, b)))
          (Proc.devRef .tc Cert.KernelIdeal.main_v49) := Cert.KernelIdeal.HostParts.V_eq m c Cert.KernelIdeal.main_v49
  have hrow : V m c (Pipeline.arrRef Cert.KernelIdeal.spec0 4)
      = after (Cert.KernelIdeal.HostParts.kGraph (F := Ideal)) (after (Cert.KernelIdeal.HostParts.kEdges (F := Ideal)) (fun b => m (c, b)))
          (Proc.devRef .tc Cert.KernelIdeal.main_v50) := Cert.KernelIdeal.HostParts.V_eq m c Cert.KernelIdeal.main_v50
  funext i
  rw [Cert.ReferenceIdeal.RefRun.after_ops, Cert.ReferenceIdeal.RefValue.join_at]
  unfold regionFn wholeFn
  by_cases h : (i 2).val < 64
  · rw [dif_pos h, dif_pos h, graph_keeps_blend, edges_keeps_blend, Cert.ReferenceIdeal.RefValue.blend_at]
    refine blend_congr (fun k => ?_) (fun k => ?_) ?_ ?_
    · exact (congrFun g0 _).trans (congrFun (V_main_arg0 m c) _).symm
    · exact (congrFun g3 _).trans (congrFun (V_main_arg3 m c) _).symm
    · exact (congrFun g1 _).trans (congrFun (V_main_arg1 m c) _).symm
    · show m' ((c.tc : Thread Cert.ReferenceIdeal.nD Cert.ReferenceIdeal.τ).loc Cert.ReferenceIdeal.main_arg4) (ix1 (⟨(i 2).val, h⟩ : Fin 64))
        = V m c (Pipeline.arrRef Cert.KernelIdeal.spec0 4) (ix2 (0 : Fin 1) (⟨(i 2).val, h⟩ : Fin 64))
      rw [hrow, bias_row, row_apply, kedges_keeps_main_arg4]
      exact congrFun g4 _
  · rw [dif_neg h, dif_neg h, hconv]
    refine congrFun (graph_agree _ _ ?_ ?_ ?_ ?_) _
    · rw [edges_keeps_main_arg2, blend_keeps_main_arg2, kedges_keeps_main_arg2]; exact g2
    · rw [edges_keeps_main_arg5, blend_keeps_main_arg5, kedges_keeps_main_arg5]; exact g5
    · rw [edges_keeps_main_arg6, blend_keeps_main_arg6, kedges_keeps_main_arg6]; exact g6
    · refine edges_agree _ _ ?_
      rw [blend_keeps_main_arg7]; exact g7

end Cert.Blend

end
-- ==== Proof.lean ====
/-
  The kernel blends, per batch entry and node, a temporal embedding with a linear map of a window of x,
      out[b, r, j] = 0.9 · temb[r, j] + 0.1 · (Σ_k x[b, r, k] · w[j, k] + bias[j])      (j < 64),
  and copies beside it the graph convolution of the spatial embedding, out[b, r, 64 + j] = spa[r, j], the convolution
  computed by host operations before the launch; the reference computes the same two halves with array operations and
  concatenates them.

  The three frames: the kernel's two are the generated frames; the reference has no kernel, and its frame is its run
  read back as a line of operations none of which writes an argument.  The idealization changed no operation, so there
  is nothing to preserve.  The equality of the results on the extended reals: the kernel's result array is one whole
  function of the arrays its region finds (Proof/Block.lean: one grid point's block; Proof/KernelValue.lean: the 80 blocks
  tile the result); the reference's result is the same function of its arguments (Proof/RefOps.lean, Proof/RefParts.lean:
  its line of operations, in stretches; Proof/RefValue.lean: read at an index); the two graph convolutions are the same
  term of the same arguments (Proof/KernelParts.lean, Proof/ConvAgree.lean); and Proof/Bridge.lean puts these together.
  Only commutative-monoid facts of the extended reals are used (a product accumulated from zero is the plain sum), so
  the finiteness of the inputs is never needed.
-/
import proofs.«138447_j12575664243034_2_alg».proof.Defs
import proofs.«138447_j12575664243034_2_alg».proof.Proof.Gen.Kernel
import proofs.«138447_j12575664243034_2_alg».proof.Proof.Gen.Kernel.Skeleton
import proofs.«138447_j12575664243034_2_alg».proof.Proof.Gen.Kernel.Launch
import proofs.«138447_j12575664243034_2_alg».proof.Proof.Gen.Kernel.Points
import proofs.«138447_j12575664243034_2_alg».proof.Proof.Gen.Kernel.Frame
import proofs.«138447_j12575664243034_2_alg».proof.Proof.Gen.KernelIdeal
import proofs.«138447_j12575664243034_2_alg».proof.Proof.Gen.KernelIdeal.Skeleton
import proofs.«138447_j12575664243034_2_alg».proof.Proof.Gen.KernelIdeal.Launch
import proofs.«138447_j12575664243034_2_alg».proof.Proof.Gen.KernelIdeal.Points
import proofs.«138447_j12575664243034_2_alg».proof.Proof.Gen.KernelIdeal.Frame
import proofs.«138447_j12575664243034_2_alg».proof.Proof.Gen.KernelIdeal.Value
import proofs.«138447_j12575664243034_2_alg».proof.Proof.Gen.ReferenceIdeal
import proofs.«138447_j12575664243034_2_alg».proof.Proof.Gen.Pre_finite_inputs
import proofs.«138447_j12575664243034_2_alg».proof.Proof.Bridge
import Idealize.ShloMosaic.Adequacy
import Idealize.ShloMosaic.Init

noncomputable section

namespace Cert.Proof

open Idealize.ShloMosaic Idealize.SL.Sem

/-- The kernel program as printed runs and leaves its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and none of its operations writes an argument. -/
theorem frame_ri : Cert.frame_ReferenceIdeal := fun m ρ _ =>
  (θ_run Cert.ReferenceIdeal.defs _ _).mono (fun r h c =>
    ⟨(h c _).trans (Cert.Blend.ops_keeps_main_arg0 _),
      (h c _).trans (Cert.Blend.ops_keeps_main_arg1 _),
      (h c _).trans (Cert.Blend.ops_keeps_main_arg2 _),
      (h c _).trans (Cert.Blend.ops_keeps_main_arg3 _),
      (h c _).trans (Cert.Blend.ops_keeps_main_arg4 _),
      (h c _).trans (Cert.Blend.ops_keeps_main_arg5 _),
      (h c _).trans (Cert.Blend.ops_keeps_main_arg6 _),
      (h c _).trans (Cert.Blend.ops_keeps_main_arg7 _)⟩)
    (Cert.ReferenceIdeal.RefRun.run_after (F := Ideal) m ρ)

/-- The ideal pass rewrote nothing. -/
theorem preserves : Cert.preserves_Kernel_KernelIdeal := trivial

/-- From memories agreeing on the arguments both idealized programs run, to the same result array — the whole function
    of the arguments — and unchanged arguments. -/
theorem algebraic : Cert.algebraic_KernelIdeal_ReferenceIdeal := by
  intro m ρ m' ρ' _ hagree
  refine ⟨fun c => Cert.Blend.regionFn m c, Cert.Blend.run m ρ, ?_⟩
  refine (θ_run Cert.ReferenceIdeal.defs _ _).mono (fun r h c => ?_) (Cert.ReferenceIdeal.RefRun.run_after (F := Ideal) m' ρ')
  obtain ⟨g0, g1, g2, g3, g4, g5, g6, g7⟩ := hagree c
  exact ⟨(h c _).trans (Cert.Blend.results_agree m m' c g0 g1 g2 g3 g4 g5 g6 g7),
      (h c _).trans (Cert.Blend.ops_keeps_main_arg0 _),
      (h c _).trans (Cert.Blend.ops_keeps_main_arg1 _),
      (h c _).trans (Cert.Blend.ops_keeps_main_arg2 _),
      (h c _).trans (Cert.Blend.ops_keeps_main_arg3 _),
      (h c _).trans (Cert.Blend.ops_keeps_main_arg4 _),
      (h c _).trans (Cert.Blend.ops_keeps_main_arg5 _),
      (h c _).trans (Cert.Blend.ops_keeps_main_arg6 _),
      (h c _).trans (Cert.Blend.ops_keeps_main_arg7 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
